-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S1024x256 : Shape := ⟨2, ![1024, 256]⟩
abbrev S256 : Shape := ⟨1, ![256]⟩
abbrev S256x1 : Shape := ⟨2, ![256, 1]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  reducesTo_S_S_d : S_.ReducesTo [] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part3 {F : FTy → Type} [FloatOps F] (main_arg11 : FVec F S1024x1024 .f32) (main_arg12 : FVec F S1024x1024 .f32) (main_arg13 : FVec F S1024x1024 .f32) (main_v47 : IVec S_ 1) (main_v50 : IVec S1024x1024 1) : IVec S_ 1 :=
  let main_c_19 : IVec S_ 1 := constantI S_ 1 1#1
  let main_v51 : IVec S_ 1 := (fun x v => Host.reduce IntOp.andi x v reducesTo_S1024x1024_S_d0_1 h_S_) main_v50 main_c_19
  let main_v52 : IVec S_ 1 := andi main_v47 main_v51
  let main_v53 : FVec F S1024x1024 .f32 := Host.absf main_arg11
  let main_cst_20 : FVec F S_ .f32 := constant S_ .f32 0x7F800000#32
  let main_v54 : FVec F S1024x1024 .f32 := broadcastInDim S1024x1024 ![] bcast_S_S1024x1024 main_cst_20
  let main_v55 : IVec S1024x1024 1 := cmpf .olt main_v53 main_v54
  let main_c_21 : IVec S_ 1 := constantI S_ 1 1#1
  let main_v56 : IVec S_ 1 := (fun x v => Host.reduce IntOp.andi x v reducesTo_S1024x1024_S_d0_1 h_S_) main_v55 main_c_21
  let main_v57 : IVec S_ 1 := andi main_v52 main_v56
  let main_v58 : FVec F S1024x1024 .f32 := Host.absf main_arg12
  let main_cst_22 : FVec F S_ .f32 := constant S_ .f32 0x7F800000#32
  let main_v59 : FVec F S1024x1024 .f32 := broadcastInDim S1024x1024 ![] bcast_S_S1024x1024 main_cst_22
  let main_v60 : IVec S1024x1024 1 := cmpf .olt main_v58 main_v59
  let main_c_23 : IVec S_ 1 := constantI S_ 1 1#1
  let main_v61 : IVec S_ 1 := (fun x v => Host.reduce IntOp.andi x v reducesTo_S1024x1024_S_d0_1 h_S_) main_v60 main_c_23
  let main_v62 : IVec S_ 1 := andi main_v57 main_v61
  let main_v63 : FVec F S1024x1024 .f32 := Host.absf main_arg13
  let main_cst_24 : FVec F S_ .f32 := constant S_ .f32 0x7F800000#32
  let main_v64 : FVec F S1024x1024 .f32 := broadcastInDim S1024x1024 ![] bcast_S_S1024x1024 main_cst_24
  let main_v65 : IVec S1024x1024 1 := cmpf .olt main_v63 main_v64
  let main_c_25 : IVec S_ 1 := constantI S_ 1 1#1
  let main_v66 : IVec S_ 1 := (fun x v => Host.reduce IntOp.andi x v reducesTo_S1024x1024_S_d0_1 h_S_) main_v65 main_c_25
  let main_v67 : IVec S_ 1 := andi main_v62 main_v66
  main_v67

def fn_part2 {F : FTy → Type} [FloatOps F] (main_arg8 : FVec F S256x1 .f32) (main_arg9 : FVec F S1 .f32) (main_arg10 : FVec F S1024x1024 .f32) (main_arg11 : FVec F S1024x1024 .f32) (main_arg12 : FVec F S1024x1024 .f32) (main_arg13 : FVec F S1024x1024 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x1 .f32 := Host.absf main_arg8
  let main_cst_14 : FVec F S_ .f32 := constant S_ .f32 0x7F800000#32
  let main_v39 : FVec F S256x1 .f32 := broadcastInDim S256x1 ![] bcast_S_S256x1 main_cst_14
  let main_v40 : IVec S256x1 1 := cmpf .olt main_v38 main_v39
  let main_c_15 : IVec S_ 1 := constantI S_ 1 1#1
  let main_v41 : IVec S_ 1 := (fun x v => Host.reduce IntOp.andi x v reducesTo_S256x1_S_d0_1 h_S_) main_v40 main_c_15
  let main_v42 : IVec S_ 1 := andi main_v37 main_v41
  let main_v43 : FVec F S1 .f32 := Host.absf main_arg9
  let main_cst_16 : FVec F S_ .f32 := constant S_ .f32 0x7F800000#32
  let main_v44 : FVec F S1 .f32 := broadcastInDim S1 ![] bcast_S_S1 main_cst_16
  let main_v45 : IVec S1 1 := cmpf .olt main_v43 main_v44
  let main_c_17 : IVec S_ 1 := constantI S_ 1 1#1
  let main_v46 : IVec S_ 1 := (fun x v => Host.reduce IntOp.andi x v reducesTo_S1_S_d0 h_S_) main_v45 main_c_17
  let main_v47 : IVec S_ 1 := andi main_v42 main_v46
  let main_v48 : FVec F S1024x1024 .f32 := Host.absf main_arg10
  let main_cst_18 : FVec F S_ .f32 := constant S_ .f32 0x7F800000#32
  let main_v49 : FVec F S1024x1024 .f32 := broadcastInDim S1024x1024 ![] bcast_S_S1024x1024 main_cst_18
  let main_v50 : IVec S1024x1024 1 := cmpf .olt main_v48 main_v49
  fn_part3 (F := F) main_arg11 main_arg12 main_arg13 main_v47 main_v50

def fn_part1 {F : FTy → Type} [FloatOps F] (main_arg4 : FVec F S1 .f32) (main_arg5 : FVec F S_ .f32) (main_arg6 : FVec F S1024x256 .f32) (main_arg7 : FVec F S256 .f32) (main_arg8 : FVec F S256x1 .f32) (main_arg9 : FVec F S1 .f32) (main_arg10 : FVec F S1024x1024 .f32) (main_arg11 : FVec F S1024x1024 .f32) (main_arg12 : FVec F S1024x1024 .f32) (main_arg13 : FVec F S1024x1024 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S1024x256 .f32 := Host.absf main_arg6
  let main_cst_10 : FVec F S_ .f32 := constant S_ .f32 0x7F800000#32
  let main_v29 : FVec F S1024x256 .f32 := broadcastInDim S1024x256 ![] bcast_S_S1024x256 main_cst_10
  let main_v30 : IVec S1024x256 1 := cmpf .olt main_v28 main_v29
  let main_c_11 : IVec S_ 1 := constantI S_ 1 1#1
  let main_v31 : IVec S_ 1 := (fun x v => Host.reduce IntOp.andi x v reducesTo_S1024x256_S_d0_1 h_S_) main_v30 main_c_11
  let main_v32 : IVec S_ 1 := andi main_v27 main_v31
  let main_v33 : FVec F S256 .f32 := Host.absf main_arg7
  fn_part2 (F := F) main_arg8 main_arg9 main_arg10 main_arg11 main_arg12 main_arg13 main_v32 main_v33

def fn {F : FTy → Type} [FloatOps F] (main_arg0 : FVec F S4096x1024 .f32) (main_arg1 : FVec F S1024x1024 .f32) (main_arg2 : FVec F S1024 .f32) (main_arg3 : FVec F S1024x1 .f32) (main_arg4 : FVec F S1 .f32) (main_arg5 : FVec F S_ .f32) (main_arg6 : FVec F S1024x256 .f32) (main_arg7 : FVec F S256 .f32) (main_arg8 : FVec F S256x1 .f32) (main_arg9 : FVec F S1 .f32) (main_arg10 : FVec F S1024x1024 .f32) (main_arg11 : FVec F S1024x1024 .f32) (main_arg12 : FVec F S1024x1024 .f32) (main_arg13 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S1024x256 : Shape := ⟨2, ![1024, 256]⟩
abbrev S256 : Shape := ⟨1, ![256]⟩
abbrev S256x1 : Shape := ⟨2, ![256, 1]⟩
abbrev S1x1024 : Shape := ⟨2, ![1, 1024]⟩
abbrev S1x1 : Shape := ⟨2, ![1, 1]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 30
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S_, .f32⟩
  | .hbm, ⟨6, _⟩ => ⟨S1024x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4096x1024, .bf16⟩
  | .hbm, ⟨15, _⟩ => ⟨S1024x1024, .bf16⟩
  | .hbm, ⟨16, _⟩ => ⟨S1024x256, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x256, .f32⟩
  | .hbm, ⟨27, _⟩ => ⟨S1x256, .f32⟩
  | .hbm, ⟨28, _⟩ => ⟨S1x1, .f32⟩
  | .hbm, ⟨29, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1, .f32⟩
  | .local _ .vmem, ⟨6, _⟩ => ⟨S1024x256, .bf16⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  shapeCasts_S1024_S1x1024 : S1024.ShapeCasts S1x1024
  shapeCasts_S1024x1_S1x1024 : S1024x1.ShapeCasts S1x1024
  bcast_S_S1 : S_.BroadcastsInDim S1 (![] : Fin 0 → Fin S1.rank)
  shapeCasts_S1_S1x1 : S1.ShapeCasts S1x1
  shapeCasts_S256_S1x256 : S256.ShapeCasts S1x256
  shapeCasts_S256x1_S1x256 : S256x1.ShapeCasts S1x256
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  reduces_S1024x1024_S1024 : S1024x1024.Reduces [1] S1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x256.size a
  hwx0_5 : ∀ i : grid0.Coords, EltTy.bits .bf16 = 32 ∨ (Rect.block (s := S1024x256) S1024x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S4096x1024.size a
  hwx0_13 : ∀ i : grid0.Coords, EltTy.bits .f32 = 32 ∨ (Rect.block (s := S4096x1024) S512x1024.size (cc0_transform_13 i) (hinb0_13 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S512x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S1024x256 : Shape := ⟨2, ![1024, 256]⟩
abbrev S256 : Shape := ⟨1, ![256]⟩
abbrev S256x1 : Shape := ⟨2, ![256, 1]⟩
abbrev S1x1024 : Shape := ⟨2, ![1, 1024]⟩
abbrev S4096 : Shape := ⟨1, ![4096]⟩
abbrev S4096x1 : Shape := ⟨2, ![4096, 1]⟩
abbrev S1x1 : Shape := ⟨2, ![1, 1]⟩
abbrev S4096x256 : Shape := ⟨2, ![4096, 256]⟩
abbrev S1x256 : Shape := ⟨2, ![1, 256]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S1024x1024, .f32⟩
  | 2 => ⟨S1024, .f32⟩
  | 3 => ⟨S1024x1, .f32⟩
  | 4 => ⟨S1, .f32⟩
  | 5 => ⟨S_, .f32⟩
  | 6 => ⟨S1024x256, .f32⟩
  | 7 => ⟨S256, .f32⟩
  | 8 => ⟨S256x1, .f32⟩
  | 9 => ⟨S1, .f32⟩
  | 10 => ⟨S1024x1024, .f32⟩
  | 11 => ⟨S1024x1024, .f32⟩
  | 12 => ⟨S1024x1024, .f32⟩
  | 13 => ⟨S1024x1024, .f32⟩
  | 14 => ⟨S4096x1024, .f32⟩
  | 15 => ⟨S1x1024, .f32⟩
  | 16 => ⟨S4096x1024, .f32⟩
  | 17 => ⟨S4096x1024, .f32⟩
  | 18 => ⟨S4096x1024, .f32⟩
  | 19 => ⟨S_, .f32⟩
  | 20 => ⟨S4096, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S1024x1024, .f32⟩
  | 29 => ⟨S_, .f32⟩
  | 30 => ⟨S1024, .f32⟩
  | 31 => ⟨S1024x1, .f32⟩
  | 32 => ⟨S1024x1, .f32⟩
  | 33 => ⟨S_, .f32⟩
  | 34 => ⟨S1024x1, .f32⟩
  | 35 => ⟨S1024x1, .f32⟩
  | 36 => ⟨S1024x1024, .f32⟩
  | 37 => ⟨S1024x1024, .f32⟩
  | 38 => ⟨S1024x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096, .f32⟩
  | 45 => ⟨S_, .f32⟩
  | 46 => ⟨S4096, .f32⟩
  | 47 => ⟨S4096, .f32⟩
  | 48 => ⟨S4096x1, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S1024x1024, .f32⟩
  | 69 => ⟨S_, .f32⟩
  | 70 => ⟨S1024, .f32⟩
  | 71 => ⟨S1024x1, .f32⟩
  | 72 => ⟨S1024x1, .f32⟩
  | 73 => ⟨S_, .f32⟩
  | 74 => ⟨S1024x1, .f32⟩
  | 75 => ⟨S1024x1, .f32⟩
  | 76 => ⟨S1024x1024, .f32⟩
  | 77 => ⟨S1024x1024, .f32⟩
  | 78 => ⟨S1024x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S4096x1024, .f32⟩
  | 96 => ⟨S4096x1024, .f32⟩
  | 97 => ⟨S4096x1024, .f32⟩
  | 98 => ⟨S4096x1, .f32⟩
  | 99 => ⟨S1x1, .f32⟩
  | 100 => ⟨S4096x1, .f32⟩
  | 101 => ⟨S4096x1, .f32⟩
  | 102 => ⟨S4096x1, .f32⟩
  | 103 => ⟨S4096x1, .f32⟩
  | 104 => ⟨S4096x1, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096x1, .f32⟩
  | 111 => ⟨S4096x1, .f32⟩
  | 112 => ⟨S4096x1024, .f32⟩
  | 113 => ⟨S4096x1024, .f32⟩
  | 114 => ⟨S_, .f32⟩
  | 115 => ⟨S4096x1, .f32⟩
  | 116 => ⟨S4096x1, .f32⟩
  | 117 => ⟨S4096x1024, .f32⟩
  | 118 => ⟨S4096x1024, .f32⟩
  | 119 => ⟨S4096x1024, .f32⟩
  | 120 => ⟨S4096x256, .f32⟩
  | 121 => ⟨S1x256, .f32⟩
  | 122 => ⟨S4096x256, .f32⟩
  | 123 => ⟨S4096x256, .f32⟩
  | 124 => ⟨S_, .f32⟩
  | 125 => ⟨S4096x256, .f32⟩
  | 126 => ⟨S4096x256, .f32⟩
  | 127 => ⟨S4096x1, .f32⟩
  | _ => ⟨S4096x1024, .f32⟩

abbrev hbmTy0_1 (i : Nat) : BufTy := match i % 128 with
  | 0 => ⟨S1x1, .f32⟩
  | 1 => ⟨S4096x1, .f32⟩
  | 2 => ⟨S4096x1, .f32⟩
  | 3 => ⟨S4096x1, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x1024, .f32⟩
  | 12 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call0_cst : Ref sig .tc := ⟨.hbm, 124, rfl⟩
abbrev main_call0_v0 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  bcast_S_S4096x1024 : S_.BroadcastsInDim S4096x1024 (![] : Fin 0 → Fin S4096x1024.rank)
  bcast_S_S4096 : S_.BroadcastsInDim S4096 (![] : Fin 0 → Fin S4096.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x1024_S1024x1024_S4096x1024_1_0_0_1_n_n_wf : DotDims.WF S4096x1024 S1024x1024 S4096x1024 [1] [0] [0] [1] [] []
  dot_S4096x1024_S1024x1_S4096x1_1_0_0_1_n_n_wf : DotDims.WF S4096x1024 S1024x1 S4096x1 [1] [0] [0] [1] [] []
  dot_S4096x1024_S1024x256_S4096x256_1_0_0_1_n_n_wf : DotDims.WF S4096x1024 S1024x256 S4096x256 [1] [0] [0] [1] [] []
  dot_S4096x256_S256x1_S4096x1_1_0_0_1_n_n_wf : DotDims.WF S4096x256 S256x1 S4096x1 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.Literals.lean ====
/-
  The four float literals of the two programs, as the extended reals their bit patterns denote: the zero every sum
  starts from, the one of each reciprocal and of the softmax temperature, the minus infinity every row maximum starts
  from, and the small positive floor under each Euclidean length. Only the sign and finiteness of the floor matter:
  it is a positive real number, so a length floored at it is never zero and its reciprocal is a nonnegative real.
-/
import Idealize.ShloMosaic.PureOps.Ideal

noncomputable section

namespace Cert.Literals

open Idealize.ShloMosaic

/-- The floor under a Euclidean length. -/
abbrev floor32 : EReal := Ideal.ofBits .f32 0x2B8CBCCC#32
/-- The literal one. -/
abbrev one32 : EReal := Ideal.ofBits .f32 0x3F800000#32
/-- The literal minus infinity. -/
abbrev ninf32 : EReal := Ideal.ofBits .f32 0xFF800000#32
/-- The literal zero. -/
abbrev zero32 : EReal := Ideal.ofBits .f32 0x00000000#32

theorem zero32_eq : zero32 = 0 := by simp [Ideal.ofBits, Ideal.ieee]

theorem one32_eq : one32 = 1 := by
  rw [show (1 : EReal) = ((1 : ℝ) : EReal) by norm_cast]
  simp [Ideal.ofBits, Ideal.ieee, -EReal.coe_mul]; norm_num

theorem ninf32_eq : ninf32 = ⊥ := by simp [Ideal.ofBits, Ideal.ieee]

/-- The floor is a positive real number. -/
theorem floor32_pos : ∃ r : ℝ, 0 < r ∧ floor32 = (r : EReal) := by
  refine ⟨_, ?_, by simp [Ideal.ofBits, Ideal.ieee, -EReal.coe_mul]; rfl⟩
  positivity

end Cert.Literals

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.TierAlgebra.lean ====
/-
  One tier of cosine attention on the extended reals, in the two arrangements the programs use, and the proof
  that they are one function when the query row and the keys are real numbers.

  A query row `q` and key rows `K m` are each divided by their Euclidean length floored at a small positive
  constant; the score of key `m` is the dot product of the two normalised rows; the scores are shifted by their
  maximum, exponentiated and normalised by their sum; the result at column `c` is the weighted sum of the values
  `V m c`.

  * The reference arrangement divides: `q d / |q|`, `K m d / |K m|`, the score over the temperature one,
    `e m / ∑ e`, and takes the maximum once more against minus infinity.
  * The kernel arrangement multiplies by reciprocals: `q d * (1 / |q|)`, the dot product with the raw key times
    `1 / |K m|`, and `e m * (1 / ∑ e)`.

  A floored length is positive, so dividing by it is multiplying by its inverse, with no condition on the entries;
  its inverse is a nonnegative number that is not infinite, so it comes out of the dot product whatever the terms.
  The scores agree unconditionally. The weights agree once the sum of exponentials is not zero, and that is where
  real entries are used: real rows have real floored lengths, real scores, a maximum that is not plus infinity,
  so each shifted score is not minus infinity, each exponential is positive and so is their sum.
-/
import Idealize.ShloMosaic.PureOps.Ideal
import proofs.«112486_g69088843923761_cont_9to1_m_285_2_alg».proof.Proof.Literals
import proofs.«112486_g69088843923761_cont_9to1_m_285_2_alg».proof.Proof.LibSoftmaxRow

noncomputable section

namespace Cert.Tier

open Idealize.ShloMosaic Cert.Literals Cert.Lib.SoftmaxRow

/-! ## Real numbers among the extended reals -/

/-- An extended real that is a real number. -/
def IsR (x : EReal) : Prop := ∃ r : ℝ, x = (r : EReal)

theorem IsR.zero : IsR 0 := ⟨0, rfl⟩
theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type*} (t : Finset ι) (f : ι → EReal) (h : ∀ k ∈ t, IsR (f k)) : IsR (∑ k ∈ t, f k) :=
  Finset.sum_induction f IsR (fun _ _ => IsR.add) IsR.zero h

theorem IsR.max {x y : EReal} (hx : IsR x) (hy : IsR y) : IsR (max x y) := by
  rcases max_choice x y with h | h <;> rw [h] <;> assumption

theorem IsR.ne_top {x : EReal} (hx : IsR x) : x ≠ ⊤ := by
  obtain ⟨a, rfl⟩ := hx; exact EReal.coe_ne_top a

/-- The square root of a nonnegative real is a real. -/
theorem IsR.sqrt {x : EReal} (hx : IsR x) (h0 : 0 ≤ x) : IsR (Ideal.sqrt x) := by
  obtain ⟨a, rfl⟩ := hx
  have ha : ¬ a < 0 := not_lt.2 (EReal.coe_nonneg.1 h0)
  exact ⟨Real.sqrt a, by rw [Ideal.sqrt_coe, if_neg ha]⟩

/-- The reciprocal of a nonzero real is a real. -/
theorem IsR.recip {x : EReal} (hx : IsR x) (h : x ≠ 0) : IsR (Ideal.div 1 x) := by
  obtain ⟨a, rfl⟩ := hx
  have ha : a ≠ 0 := fun e => h (by rw [e]; rfl)
  refine ⟨1 / a, ?_⟩
  rw [Ideal.div_coe ha, one_mul]

/-- A real row's sum of squares is a nonnegative real. -/
theorem sumsq_real {D : ℕ} {v : Fin D → EReal} (hv : ∀ d, IsR (v d)) : IsR (∑ d, v d * v d) :=
  IsR.sum _ _ fun d _ => (hv d).mul (hv d)

theorem sumsq_nonneg {D : ℕ} {v : Fin D → EReal} (hv : ∀ d, IsR (v d)) : 0 ≤ ∑ d, v d * v d :=
  Finset.sum_nonneg fun d _ => by
    obtain ⟨a, ha⟩ := hv d
    rw [ha, ← EReal.coe_mul]
    exact EReal.coe_nonneg.2 (mul_self_nonneg a)

/-! ## The floored length of a row -/

/-- The Euclidean length of a row, floored at the small positive constant. -/
def flooredNorm {D : ℕ} (v : Fin D → EReal) : EReal := max (Ideal.sqrt (∑ d, v d * v d)) floor32

theorem flooredNorm_pos {D : ℕ} (v : Fin D → EReal) : 0 < flooredNorm v := by
  obtain ⟨r, hr, he⟩ := floor32_pos
  exact lt_of_lt_of_le (by rw [he]; exact EReal.coe_pos.2 hr) (le_max_right _ _)

theorem flooredNorm_ne_zero {D : ℕ} (v : Fin D → EReal) : flooredNorm v ≠ 0 := (flooredNorm_pos v).ne'

theorem flooredNorm_real {D : ℕ} {v : Fin D → EReal} (hv : ∀ d, IsR (v d)) : IsR (flooredNorm v) := by
  obtain ⟨r, _, he⟩ := floor32_pos
  exact IsR.max (IsR.sqrt (sumsq_real hv) (sumsq_nonneg hv)) ⟨r, he⟩

/-- Dividing by a nonzero number is multiplying by its inverse. -/
theorem div_eq_mul_inv {n : EReal} (hn : n ≠ 0) (x : EReal) : Ideal.div x n = x * n⁻¹ := by
  unfold Ideal.div; rw [if_neg hn]

/-- The literal one over a nonzero number is its inverse. -/
theorem one32_div {n : EReal} (hn : n ≠ 0) : Ideal.div one32 n = n⁻¹ := by
  rw [one32_eq, div_eq_mul_inv hn, one_mul]

/-- Dividing by the literal one changes nothing. -/
theorem div_one32 (x : EReal) : Ideal.div x one32 = x := by
  rw [one32_eq, div_eq_mul_inv one_ne_zero, inv_one, mul_one]

theorem recip_norm_real {D : ℕ} {v : Fin D → EReal} (hv : ∀ d, IsR (v d)) : IsR (Ideal.div one32 (flooredNorm v)) := by
  rw [one32_eq]; exact (flooredNorm_real hv).recip (flooredNorm_ne_zero v)

/-! ## Scores -/

variable {D M C : ℕ}

/-- The reference's score of key `m`: the dot product of the two normalised rows, over the temperature one. -/
def scoreRef (q : Fin D → EReal) (K : Fin M → Fin D → EReal) (m : Fin M) : EReal :=
  Ideal.div (∑ d, Ideal.div (q d) (flooredNorm q) * Ideal.div (K m d) (flooredNorm (K m))) one32

/-- The kernel's score of key `m`: the query row times the reciprocal of its length, dotted with the raw key, times
    the reciprocal of the key's length. -/
def scoreKer (q : Fin D → EReal) (K : Fin M → Fin D → EReal) (m : Fin M) : EReal :=
  (∑ d, (q d * Ideal.div one32 (flooredNorm q)) * K m d) * Ideal.div one32 (flooredNorm (K m))

/-- The two scores are one number, whatever the entries: the key's inverse length is a finite nonnegative factor. -/
theorem score_eq (q : Fin D → EReal) (K : Fin M → Fin D → EReal) (m : Fin M) : scoreKer q K m = scoreRef q K m := by
  unfold scoreKer scoreRef
  rw [div_one32, one32_div (flooredNorm_ne_zero q), one32_div (flooredNorm_ne_zero (K m)),
    sum_mul_of_nonneg_of_ne_top _ _ (EReal.inv_nonneg_of_nonneg (flooredNorm_pos (K m)).le) (EReal.inv_lt_top _).ne]
  refine Finset.sum_congr rfl fun d _ => ?_
  rw [div_eq_mul_inv (flooredNorm_ne_zero q), div_eq_mul_inv (flooredNorm_ne_zero (K m)), mul_assoc]

/-- Real rows give a real score. -/
theorem scoreKer_real {q : Fin D → EReal} {K : Fin M → Fin D → EReal} (hq : ∀ d, IsR (q d)) (hK : ∀ m d, IsR (K m d))
    (m : Fin M) : IsR (scoreKer q K m) :=
  (IsR.sum _ _ fun d _ => ((hq d).mul (recip_norm_real hq)).mul (hK m d)).mul (recip_norm_real (hK m))

/-! ## Softmax weights and the weighted sum -/

/-- The reference's weighted sum: the maximum taken once more against minus infinity, each weight a quotient. -/
def attendRef (s : Fin M → EReal) (V : Fin M → Fin C → EReal) (c : Fin C) : EReal :=
  ∑ m, Ideal.div (Ideal.exp (s m - max ninf32 ((Finset.univ : Finset (Fin M)).fold max ninf32 s)))
      (zero32 + ∑ j, Ideal.exp (s j - max ninf32 ((Finset.univ : Finset (Fin M)).fold max ninf32 s))) * V m c

/-- The kernel's weighted sum: each weight a product with the reciprocal of the row sum. -/
def attendKer (s : Fin M → EReal) (V : Fin M → Fin C → EReal) (c : Fin C) : EReal :=
  ∑ m, (Ideal.exp (s m - (Finset.univ : Finset (Fin M)).fold max ninf32 s)
      * Ideal.div one32 (∑ j, Ideal.exp (s j - (Finset.univ : Finset (Fin M)).fold max ninf32 s))) * V m c

/-- With real scores the two weighted sums are one number, for any values. -/
theorem attend_eq (hM : 0 < M) {s : Fin M → EReal} (hs : ∀ m, IsR (s m)) (V : Fin M → Fin C → EReal) (c : Fin C) :
    attendKer s V c = attendRef s V c := by
  unfold attendKer attendRef
  have hmx : max ninf32 ((Finset.univ : Finset (Fin M)).fold max ninf32 s) = (Finset.univ : Finset (Fin M)).fold max ninf32 s := by
    rw [ninf32_eq]; exact max_eq_right bot_le
  have hne : (Finset.univ : Finset (Fin M)).fold max ninf32 s ≠ ⊤ := by
    rw [ninf32_eq]; exact fold_max_ne_top bot_ne_top s fun k => (hs k).ne_top
  have hl : (∑ j, Ideal.exp (s j - (Finset.univ : Finset (Fin M)).fold max ninf32 s)) ≠ 0 :=
    (rowsum_pos s _ hM hs hne).ne'
  rw [hmx, zero32_eq, zero_add, one32_eq]
  exact Finset.sum_congr rfl fun m _ => by rw [mul_one_div hl]

/-! ## One tier -/

/-- One tier in the reference's arrangement. -/
def tierRef (q : Fin D → EReal) (K : Fin M → Fin D → EReal) (V : Fin M → Fin C → EReal) (c : Fin C) : EReal :=
  attendRef (scoreRef q K) V c

/-- One tier in the kernel's arrangement. -/
def tierKer (q : Fin D → EReal) (K : Fin M → Fin D → EReal) (V : Fin M → Fin C → EReal) (c : Fin C) : EReal :=
  attendKer (scoreKer q K) V c

/-- For a real query row and real keys the two arrangements of a tier are one number, for any values. -/
theorem tier_eq (hM : 0 < M) {q : Fin D → EReal} {K : Fin M → Fin D → EReal} (hq : ∀ d, IsR (q d))
    (hK : ∀ m d, IsR (K m d)) (V : Fin M → Fin C → EReal) (c : Fin C) : tierKer q K V c = tierRef q K V c := by
  unfold tierKer tierRef
  rw [attend_eq hM (fun m => scoreKer_real hq hK m) V c]
  exact congrArg (fun s => attendRef s V c) (funext fun m => score_eq q K m)

end Cert.Tier

end
-- ==== Proof.Spec.lean ====
/-
  The whole layer as one function of its fourteen arrays, entry by entry, in the two arrangements.

  For a row `b` of the input `X`: the query row is `X b · Wq + bq`; each memory tier (keys, values) answers with
  cosine attention of that query row (`TierAlgebra`); a mixing gate `g = sigmoid (X b · gw + gb + mix)` blends the fast
  and the deep tier, `g · fast + (1 - g) · deep`; and a confidence `sigmoid (relu (X b · W1 + b1) · w2 + b2)` scales the
  blend. The reference writes the sigmoid out, `1 / (1 + exp (-t))`, adds the three gate terms as `mix + (dot + gb)` and
  uses the dividing form of a tier; the kernel has the sigmoid as one operation, adds `dot + (gb + mix)` and uses the
  reciprocal form of a tier. The sigmoid is by definition that expression and addition on the extended reals is
  commutative and associative, so gate and confidence agree for all entries; the tiers agree when `X`, `Wq`, `bq` and
  both key arrays are real, since then every query row is real.
-/
import proofs.«112486_g69088843923761_cont_9to1_m_285_2_alg».proof.Proof.TierAlgebra

noncomputable section

namespace Cert.Spec

open Idealize.ShloMosaic Cert.Literals Cert.Tier

variable (X : Fin 4096 → Fin 1024 → EReal) (Wq : Fin 1024 → Fin 1024 → EReal) (bq : Fin 1024 → EReal)
  (gw : Fin 1024 → EReal) (gb mix : EReal) (W1 : Fin 1024 → Fin 256 → EReal) (b1 : Fin 256 → EReal)
  (w2 : Fin 256 → EReal) (b2 : EReal) (FK FV DK DV : Fin 1024 → Fin 1024 → EReal)

/-- The query row of input row `b`. -/
def query (b : Fin 4096) (d : Fin 1024) : EReal := (∑ k, X b k * Wq k d) + bq d

/-- The hidden layer of the confidence network, after the rectifier. -/
def hidden (b : Fin 4096) (j : Fin 256) : EReal := max ((∑ k, X b k * W1 k j) + b1 j) zero32

/-- The mixing gate as the reference spells it. -/
def gateRef (b : Fin 4096) : EReal :=
  Ideal.div one32 (one32 + Ideal.exp (-(mix + ((∑ d, X b d * gw d) + gb))))

/-- The mixing gate as the kernel spells it. -/
def gateKer (b : Fin 4096) : EReal := Ideal.logistic ((∑ d, X b d * gw d) + (gb + mix))

/-- The confidence as the reference spells it. -/
def confRef (b : Fin 4096) : EReal :=
  Ideal.div one32 (one32 + Ideal.exp (-((∑ j, hidden X W1 b1 b j * w2 j) + b2)))

/-- The confidence as the kernel spells it. -/
def confKer (b : Fin 4096) : EReal := Ideal.logistic ((∑ j, hidden X W1 b1 b j * w2 j) + b2)

/-- The output entry in the reference's arrangement. -/
def outRef (b : Fin 4096) (c : Fin 1024) : EReal :=
  (gateRef X gw gb mix b * tierRef (query X Wq bq b) FK FV c
    + (one32 - gateRef X gw gb mix b) * tierRef (query X Wq bq b) DK DV c) * confRef X W1 b1 w2 b2 b

/-- The output entry in the kernel's arrangement. -/
def outKer (b : Fin 4096) (c : Fin 1024) : EReal :=
  (gateKer X gw gb mix b * tierKer (query X Wq bq b) FK FV c
    + (one32 - gateKer X gw gb mix b) * tierKer (query X Wq bq b) DK DV c) * confKer X W1 b1 w2 b2 b

/-- The sigmoid is the expression the reference writes. -/
theorem logistic_eq (t : EReal) : Ideal.logistic t = Ideal.div one32 (one32 + Ideal.exp (-t)) := by
  rw [one32_eq]; rfl

theorem gate_eq (b : Fin 4096) : gateKer X gw gb mix b = gateRef X gw gb mix b := by
  unfold gateKer gateRef
  rw [logistic_eq]
  refine congrArg (fun t => Ideal.div one32 (one32 + Ideal.exp (-t))) ?_
  rw [add_comm gb mix, ← add_assoc, add_comm _ mix, add_assoc]

theorem conf_eq (b : Fin 4096) : confKer X W1 b1 w2 b2 b = confRef X W1 b1 w2 b2 b := by
  unfold confKer confRef
  rw [logistic_eq]

/-- A query row of real inputs is real. -/
theorem query_real (hX : ∀ b k, IsR (X b k)) (hW : ∀ k d, IsR (Wq k d)) (hb : ∀ d, IsR (bq d)) (b : Fin 4096)
    (d : Fin 1024) : IsR (query X Wq bq b d) :=
  (IsR.sum _ _ fun k _ => (hX b k).mul (hW k d)).add (hb d)

/-- With real `X`, `Wq`, `bq` and real keys in both tiers the two arrangements give one output. -/
theorem out_eq (hX : ∀ b k, IsR (X b k)) (hW : ∀ k d, IsR (Wq k d)) (hb : ∀ d, IsR (bq d))
    (hFK : ∀ m d, IsR (FK m d)) (hDK : ∀ m d, IsR (DK m d)) (b : Fin 4096) (c : Fin 1024) :
    outKer X Wq bq gw gb mix W1 b1 w2 b2 FK FV DK DV b c = outRef X Wq bq gw gb mix W1 b1 w2 b2 FK FV DK DV b c := by
  unfold outKer outRef
  rw [gate_eq, conf_eq, tier_eq (by decide) (query_real X Wq bq hX hW hb b) hFK FV c,
    tier_eq (by decide) (query_real X Wq bq hX hW hb b) hDK DV c]

end Cert.Spec

end
-- ==== Proof.Arrays.lean ====
/-
  The arrays of the two programs as functions of coordinates, and the output array in each arrangement.

  A matrix `[m, n]` is read at `(i, j)`, a vector `[n]` at `i`, a one-column matrix `[n, 1]` at `(i, 0)`, a
  one-element vector at its element and a scalar at its one index; with these the layer's output array is the
  entry function of `Spec` at the index's two coordinates. When the five arrays the tiers' queries and keys come
  from hold real numbers the two arrangements are one array.
-/
import proofs.«112486_g69088843923761_cont_9to1_m_285_2_alg».proof.Proof.Spec
import Idealize.ShloMosaic.Lib.ValueIdx

noncomputable section

namespace Cert.Arrays

open Idealize.ShloMosaic Idealize.ShloMosaic.ValueIdx Cert.Tier Cert.Spec

/-- A matrix read at its two coordinates. -/
def mat {m n : ℕ} (x : (⟨2, ![m, n]⟩ : Shape).Idx → EReal) (i : Fin m) (j : Fin n) : EReal := x (ix2 i j)
/-- A vector read at its coordinate. -/
def vec {n : ℕ} (x : (⟨1, ![n]⟩ : Shape).Idx → EReal) (i : Fin n) : EReal := x (ix1 i)
/-- A one-column matrix read down its column. -/
def col {n : ℕ} (x : (⟨2, ![n, 1]⟩ : Shape).Idx → EReal) (i : Fin n) : EReal := x (ix2 i (0 : Fin 1))
/-- The element of a one-element vector. -/
def one1 (x : (⟨1, ![1]⟩ : Shape).Idx → EReal) : EReal := x (ix1 (0 : Fin 1))
/-- The value of a scalar. -/
def one0 (x : (⟨0, ![]⟩ : Shape).Idx → EReal) : EReal := x ix0

variable (x0 : (⟨2, ![4096, 1024]⟩ : Shape).Idx → EReal) (x1 : (⟨2, ![1024, 1024]⟩ : Shape).Idx → EReal)
  (x2 : (⟨1, ![1024]⟩ : Shape).Idx → EReal) (x3 : (⟨2, ![1024, 1]⟩ : Shape).Idx → EReal)
  (x4 : (⟨1, ![1]⟩ : Shape).Idx → EReal) (x5 : (⟨0, ![]⟩ : Shape).Idx → EReal)
  (x6 : (⟨2, ![1024, 256]⟩ : Shape).Idx → EReal) (x7 : (⟨1, ![256]⟩ : Shape).Idx → EReal)
  (x8 : (⟨2, ![256, 1]⟩ : Shape).Idx → EReal) (x9 : (⟨1, ![1]⟩ : Shape).Idx → EReal)
  (x10 x11 x12 x13 : (⟨2, ![1024, 1024]⟩ : Shape).Idx → EReal)

/-- The output array in the reference's arrangement. -/
def outArrayRef : (⟨2, ![4096, 1024]⟩ : Shape).Idx → EReal := fun i =>
  outRef (mat x0) (mat x1) (vec x2) (col x3) (one1 x4) (one0 x5) (mat x6) (vec x7) (col x8) (one1 x9)
    (mat x10) (mat x11) (mat x12) (mat x13) (i 0) (i 1)

/-- The output array in the kernel's arrangement. -/
def outArrayKer : (⟨2, ![4096, 1024]⟩ : Shape).Idx → EReal := fun i =>
  outKer (mat x0) (mat x1) (vec x2) (col x3) (one1 x4) (one0 x5) (mat x6) (vec x7) (col x8) (one1 x9)
    (mat x10) (mat x11) (mat x12) (mat x13) (i 0) (i 1)

/-- With real entries in the input, the query weights and bias, and both key arrays, the two arrangements are one
    array. -/
theorem outArray_eq (h0 : ∀ i, IsR (x0 i)) (h1 : ∀ i, IsR (x1 i)) (h2 : ∀ i, IsR (x2 i)) (h10 : ∀ i, IsR (x10 i))
    (h12 : ∀ i, IsR (x12 i)) :
    outArrayKer x0 x1 x2 x3 x4 x5 x6 x7 x8 x9 x10 x11 x12 x13 = outArrayRef x0 x1 x2 x3 x4 x5 x6 x7 x8 x9 x10 x11 x12 x13 :=
  funext fun i => out_eq _ _ _ _ _ _ _ _ _ _ _ _ _ _ (fun b k => h0 _) (fun k d => h1 _) (fun d => h2 _) (fun m d => h10 _)
    (fun m d => h12 _) (i 0) (i 1)

end Cert.Arrays

end
-- ==== Proof.RefRead.lean ====
/-
  The reference program read at an entry: its output array is the layer in the reference's arrangement.

  The generated reading of the reference gives each of its operations at an index from its operands at an index.
  Chained from the result back to the arguments, at the entry `(b, c)`: the query row is `x0 b · x1 + x2`; each
  tier's normalised rows, scores, row maximum, exponentials, row sum and weighted sum are the pieces of a tier in the
  dividing form; the gate and the confidence are the written-out sigmoids; the result is their blend. Every layout
  operation only re-reads a coordinate: a length kept as a column is read at its row, a transposed key matrix at the
  swapped pair, a broadcast scalar at its one index. The row maximum is a host reduction over one axis, read as the
  fold of `max` over that axis's coordinate.
-/
import proofs.«112486_g69088843923761_cont_9to1_m_285_2_alg».proof.Proof.Gen.ReferenceIdeal.Read
import proofs.«112486_g69088843923761_cont_9to1_m_285_2_alg».proof.Proof.Arrays

noncomputable section

namespace Cert.RefRead

open Cert.ReferenceIdeal Cert.ReferenceIdeal.Read Idealize.ShloMosaic Idealize.ShloMosaic.ValueIdx
open Cert.Literals Cert.Tier Cert.Spec Cert.Arrays

/-- Two rank-2 indices with the same coordinates are equal. -/
macro "idx2" : tactic => `(tactic| (funext a; apply Fin.ext; match a with | ⟨0, _⟩ => rfl | ⟨1, _⟩ => rfl))
/-- Two rank-1 indices with the same coordinate are equal. -/
macro "idx1" : tactic => `(tactic| (funext a; apply Fin.ext; match a with | ⟨0, _⟩ => rfl))
/-- The scalar shape has one index. -/
macro "idx0" : tactic => `(tactic| (funext a; exact a.elim0))

variable (x0 : (⟨S4096x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1, .f32⟩ : BufTy).Contents (Elt Ideal))
  (x4 : (⟨S1, .f32⟩ : BufTy).Contents (Elt Ideal)) (x5 : (⟨S_, .f32⟩ : BufTy).Contents (Elt Ideal))
  (x6 : (⟨S1024x256, .f32⟩ : BufTy).Contents (Elt Ideal)) (x7 : (⟨S256, .f32⟩ : BufTy).Contents (Elt Ideal))
  (x8 : (⟨S256x1, .f32⟩ : BufTy).Contents (Elt Ideal)) (x9 : (⟨S1, .f32⟩ : BufTy).Contents (Elt Ideal))
  (x10 x11 x12 x13 : (⟨S1024x1024, .f32⟩ : BufTy).Contents (Elt Ideal))

/-! ## The query row -/

theorem query_read (b : Fin 4096) (d : Fin 1024) :
    val_main_v3 (F := Ideal) x0 x1 x2 (ix2 b d) = query (mat x0) (mat x1) (vec x2) b d := by
  rw [val_main_v3_apply, val_main_v0_apply, val_main_v2_apply, val_main_v1_apply]
  have e1 : ∀ k, lidx_main_v0 (ix2 b d) k = ix2 b k := fun k => by idx2
  have e2 : ∀ k, ridx_main_v0 (ix2 b d) k = ix2 k d := fun k => by idx2
  have e3 : idx_main_v1 (idx_main_v2 (ix2 b d)) = ix1 d := by idx1
  simp only [e1, e2, e3]
  rfl

/-! ## The Fast tier -/

theorem qnormFast_read (b : Fin 4096) (u : Fin 1) :
    val_main_v9 (F := Ideal) x0 x1 x2 (ix2 b u) = flooredNorm (query (mat x0) (mat x1) (vec x2) b) := by
  rw [val_main_v9_apply, val_main_v7_apply, val_main_v6_apply, val_main_v5_apply, val_main_v8_apply, val_main_cst_0_apply, val_main_cst_apply]
  have e1 : ∀ k, idx_main_v5 (idx_main_v6 (ix2 b u)) k = ix2 b k := fun k => by idx2
  simp only [e1, val_main_v4_apply, query_read, Ideal.ofBits_def, Ideal.ofBits_zero_f32, zero_add, Ideal.mulf_def,
    Ideal.maximumf_def, Ideal.hostUnary_sqrt_def]
  rfl

theorem qnFast_read (b : Fin 4096) (d : Fin 1024) :
    val_main_v11 (F := Ideal) x0 x1 x2 (ix2 b d)
      = Ideal.div (query (mat x0) (mat x1) (vec x2) b d) (flooredNorm (query (mat x0) (mat x1) (vec x2) b)) := by
  rw [val_main_v11_apply, val_main_v10_apply]
  have e1 : idx_main_v10 (ix2 b d) = ix2 b (0 : Fin 1) := by idx2
  rw [e1, qnormFast_read, query_read]
  rfl

theorem knormFast_read (m : Fin 1024) (u : Fin 1) :
    val_main_v17 (F := Ideal) x10 (ix2 m u) = flooredNorm (mat x10 m) := by
  rw [val_main_v17_apply, val_main_v15_apply, val_main_v14_apply, val_main_v13_apply, val_main_v16_apply, val_main_cst_2_apply, val_main_cst_1_apply]
  have e1 : ∀ k, idx_main_v13 (idx_main_v14 (ix2 m u)) k = ix2 m k := fun k => by idx2
  simp only [e1, val_main_v12_apply, Ideal.ofBits_def, Ideal.ofBits_zero_f32, zero_add, Ideal.mulf_def,
    Ideal.maximumf_def, Ideal.hostUnary_sqrt_def]
  rfl

theorem knFast_read (m : Fin 1024) (d : Fin 1024) :
    val_main_v19 (F := Ideal) x10 (ix2 m d) = Ideal.div (mat x10 m d) (flooredNorm (mat x10 m)) := by
  rw [val_main_v19_apply, val_main_v18_apply]
  have e1 : idx_main_v18 (ix2 m d) = ix2 m (0 : Fin 1) := by idx2
  rw [e1, knormFast_read]
  rfl

theorem scoreFast_read (b : Fin 4096) (m : Fin 1024) :
    val_main_v23 (F := Ideal) x0 x1 x2 x10 (ix2 b m) = scoreRef (query (mat x0) (mat x1) (vec x2) b) (mat x10) m := by
  rw [val_main_v23_apply, val_main_v21_apply, val_main_v22_apply, val_main_cst_3_apply]
  have e1 : ∀ k, lidx_main_v21 (ix2 b m) k = ix2 b k := fun k => by idx2
  have e2 : ∀ k, idx_main_v20 (ridx_main_v21 (ix2 b m) k) = ix2 m k := fun k => by idx2
  simp only [val_main_v20_apply, e1, e2, qnFast_read, knFast_read, Ideal.ofBits_def, Ideal.hostDivf_def]
  rfl

theorem maxFast_read (b : Fin 4096) :
    val_main_v26 (F := Ideal) x0 x1 x2 x10 (ix1 b)
      = max ninf32 ((Finset.univ : Finset (Fin 1024)).fold max ninf32
          (scoreRef (query (mat x0) (mat x1) (vec x2) b) (mat x10))) := by
  rw [val_main_v26_apply, val_main_v25_apply, val_main_cst_5_apply]
  unfold val_main_v24
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single (FloatOps.maximumf (F := Ideal) (φ := .f32)) _ _ Gen.reducesTo_S4096x1024_S4096_d1 (by decide) Gen.h_S_]
  have e1 : (val_main_v23 (F := Ideal) x0 x1 x2 x10) ∘ (Shape.Reduces.lift (by decide : S4096x1024.Reduces [1] S4096) (ix1 b))
      = scoreRef (query (mat x0) (mat x1) (vec x2) b) (mat x10) := by
    funext k
    refine Eq.trans (congrArg (val_main_v23 (F := Ideal) x0 x1 x2 x10) ?_) (scoreFast_read x0 x1 x2 x10 b k)
    idx2
  rw [e1, val_main_cst_4_apply]
  rfl

theorem expFast_read (b : Fin 4096) (m : Fin 1024) :
    val_main_v30 (F := Ideal) x0 x1 x2 x10 (ix2 b m)
      = Ideal.exp (scoreRef (query (mat x0) (mat x1) (vec x2) b) (mat x10) m
          - max ninf32 ((Finset.univ : Finset (Fin 1024)).fold max ninf32
              (scoreRef (query (mat x0) (mat x1) (vec x2) b) (mat x10)))) := by
  rw [val_main_v30_apply, val_main_v29_apply, val_main_v28_apply, val_main_v27_apply]
  have e1 : idx_main_v27 (idx_main_v28 (ix2 b m)) = ix1 b := by idx1
  rw [e1, maxFast_read, scoreFast_read]
  rfl

theorem rowsumFast_read (b : Fin 4096) :
    val_main_v31 (F := Ideal) x0 x1 x2 x10 (ix1 b)
      = zero32 + ∑ j, Ideal.exp (scoreRef (query (mat x0) (mat x1) (vec x2) b) (mat x10) j
          - max ninf32 ((Finset.univ : Finset (Fin 1024)).fold max ninf32
              (scoreRef (query (mat x0) (mat x1) (vec x2) b) (mat x10)))) := by
  rw [val_main_v31_apply, val_main_cst_6_apply]
  have e1 : ∀ k, idx_main_v31 (ix1 b) k = ix2 b k := fun k => by idx2
  simp only [e1, expFast_read]
  rfl

theorem tierFast_read (b : Fin 4096) (c : Fin 1024) :
    val_main_v35 (F := Ideal) x0 x1 x2 x10 x11 (ix2 b c)
      = tierRef (query (mat x0) (mat x1) (vec x2) b) (mat x10) (mat x11) c := by
  rw [val_main_v35_apply]
  have e1 : ∀ k, lidx_main_v35 (ix2 b c) k = ix2 b k := fun k => by idx2
  have e2 : ∀ k, ridx_main_v35 (ix2 b c) k = ix2 k c := fun k => by idx2
  have e3 : ∀ k, idx_main_v32 (idx_main_v33 (ix2 b k)) = ix1 b := fun k => by idx1
  simp only [e1, e2, val_main_v34_apply, val_main_v33_apply, val_main_v32_apply, e3, expFast_read, rowsumFast_read, Ideal.hostDivf_def]
  rfl

/-! ## The Deep tier -/

theorem qnormDeep_read (b : Fin 4096) (u : Fin 1) :
    val_main_v41 (F := Ideal) x0 x1 x2 (ix2 b u) = flooredNorm (query (mat x0) (mat x1) (vec x2) b) := by
  rw [val_main_v41_apply, val_main_v39_apply, val_main_v38_apply, val_main_v37_apply, val_main_v40_apply, val_main_cst_8_apply, val_main_cst_7_apply]
  have e1 : ∀ k, idx_main_v37 (idx_main_v38 (ix2 b u)) k = ix2 b k := fun k => by idx2
  simp only [e1, val_main_v36_apply, query_read, Ideal.ofBits_def, Ideal.ofBits_zero_f32, zero_add, Ideal.mulf_def,
    Ideal.maximumf_def, Ideal.hostUnary_sqrt_def]
  rfl

theorem qnDeep_read (b : Fin 4096) (d : Fin 1024) :
    val_main_v43 (F := Ideal) x0 x1 x2 (ix2 b d)
      = Ideal.div (query (mat x0) (mat x1) (vec x2) b d) (flooredNorm (query (mat x0) (mat x1) (vec x2) b)) := by
  rw [val_main_v43_apply, val_main_v42_apply]
  have e1 : idx_main_v42 (ix2 b d) = ix2 b (0 : Fin 1) := by idx2
  rw [e1, qnormDeep_read, query_read]
  rfl

theorem knormDeep_read (m : Fin 1024) (u : Fin 1) :
    val_main_v49 (F := Ideal) x12 (ix2 m u) = flooredNorm (mat x12 m) := by
  rw [val_main_v49_apply, val_main_v47_apply, val_main_v46_apply, val_main_v45_apply, val_main_v48_apply, val_main_cst_10_apply, val_main_cst_9_apply]
  have e1 : ∀ k, idx_main_v45 (idx_main_v46 (ix2 m u)) k = ix2 m k := fun k => by idx2
  simp only [e1, val_main_v44_apply, Ideal.ofBits_def, Ideal.ofBits_zero_f32, zero_add, Ideal.mulf_def,
    Ideal.maximumf_def, Ideal.hostUnary_sqrt_def]
  rfl

theorem knDeep_read (m : Fin 1024) (d : Fin 1024) :
    val_main_v51 (F := Ideal) x12 (ix2 m d) = Ideal.div (mat x12 m d) (flooredNorm (mat x12 m)) := by
  rw [val_main_v51_apply, val_main_v50_apply]
  have e1 : idx_main_v50 (ix2 m d) = ix2 m (0 : Fin 1) := by idx2
  rw [e1, knormDeep_read]
  rfl

theorem scoreDeep_read (b : Fin 4096) (m : Fin 1024) :
    val_main_v55 (F := Ideal) x0 x1 x2 x12 (ix2 b m) = scoreRef (query (mat x0) (mat x1) (vec x2) b) (mat x12) m := by
  rw [val_main_v55_apply, val_main_v53_apply, val_main_v54_apply, val_main_cst_11_apply]
  have e1 : ∀ k, lidx_main_v53 (ix2 b m) k = ix2 b k := fun k => by idx2
  have e2 : ∀ k, idx_main_v52 (ridx_main_v53 (ix2 b m) k) = ix2 m k := fun k => by idx2
  simp only [val_main_v52_apply, e1, e2, qnDeep_read, knDeep_read, Ideal.ofBits_def, Ideal.hostDivf_def]
  rfl

theorem maxDeep_read (b : Fin 4096) :
    val_main_v58 (F := Ideal) x0 x1 x2 x12 (ix1 b)
      = max ninf32 ((Finset.univ : Finset (Fin 1024)).fold max ninf32
          (scoreRef (query (mat x0) (mat x1) (vec x2) b) (mat x12))) := by
  rw [val_main_v58_apply, val_main_v57_apply, val_main_cst_13_apply]
  unfold val_main_v56
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single (FloatOps.maximumf (F := Ideal) (φ := .f32)) _ _ Gen.reducesTo_S4096x1024_S4096_d1 (by decide) Gen.h_S_]
  have e1 : (val_main_v55 (F := Ideal) x0 x1 x2 x12) ∘ (Shape.Reduces.lift (by decide : S4096x1024.Reduces [1] S4096) (ix1 b))
      = scoreRef (query (mat x0) (mat x1) (vec x2) b) (mat x12) := by
    funext k
    refine Eq.trans (congrArg (val_main_v55 (F := Ideal) x0 x1 x2 x12) ?_) (scoreDeep_read x0 x1 x2 x12 b k)
    idx2
  rw [e1, val_main_cst_12_apply]
  rfl

theorem expDeep_read (b : Fin 4096) (m : Fin 1024) :
    val_main_v62 (F := Ideal) x0 x1 x2 x12 (ix2 b m)
      = Ideal.exp (scoreRef (query (mat x0) (mat x1) (vec x2) b) (mat x12) m
          - max ninf32 ((Finset.univ : Finset (Fin 1024)).fold max ninf32
              (scoreRef (query (mat x0) (mat x1) (vec x2) b) (mat x12)))) := by
  rw [val_main_v62_apply, val_main_v61_apply, val_main_v60_apply, val_main_v59_apply]
  have e1 : idx_main_v59 (idx_main_v60 (ix2 b m)) = ix1 b := by idx1
  rw [e1, maxDeep_read, scoreDeep_read]
  rfl

theorem rowsumDeep_read (b : Fin 4096) :
    val_main_v63 (F := Ideal) x0 x1 x2 x12 (ix1 b)
      = zero32 + ∑ j, Ideal.exp (scoreRef (query (mat x0) (mat x1) (vec x2) b) (mat x12) j
          - max ninf32 ((Finset.univ : Finset (Fin 1024)).fold max ninf32
              (scoreRef (query (mat x0) (mat x1) (vec x2) b) (mat x12)))) := by
  rw [val_main_v63_apply, val_main_cst_14_apply]
  have e1 : ∀ k, idx_main_v63 (ix1 b) k = ix2 b k := fun k => by idx2
  simp only [e1, expDeep_read]
  rfl

theorem tierDeep_read (b : Fin 4096) (c : Fin 1024) :
    val_main_v67 (F := Ideal) x0 x1 x2 x12 x13 (ix2 b c)
      = tierRef (query (mat x0) (mat x1) (vec x2) b) (mat x12) (mat x13) c := by
  rw [val_main_v67_apply]
  have e1 : ∀ k, lidx_main_v67 (ix2 b c) k = ix2 b k := fun k => by idx2
  have e2 : ∀ k, ridx_main_v67 (ix2 b c) k = ix2 k c := fun k => by idx2
  have e3 : ∀ k, idx_main_v64 (idx_main_v65 (ix2 b k)) = ix1 b := fun k => by idx1
  simp only [e1, e2, val_main_v66_apply, val_main_v65_apply, val_main_v64_apply, e3, expDeep_read, rowsumDeep_read, Ideal.hostDivf_def]
  rfl

/-! ## The gate, the confidence and the blend -/

theorem gate_read (b : Fin 4096) (u : Fin 1) :
    val_main_v79 (F := Ideal) x0 x3 x4 x5 (ix2 b u) = gateRef (mat x0) (col x3) (one1 x4) (one0 x5) b := by
  obtain rfl : u = 0 := Subsingleton.elim _ _
  rw [val_main_v79_apply, val_main_v78_apply, val_main_cst_16_apply, val_main_v77_apply, val_main_v76_apply,
    val_main_cst_15_apply, val_main_v75_apply, val_main_v74_apply, val_main_v73_apply, val_main_v72_apply,
    val_main_v71_apply, val_main_v68_apply, val_main_v70_apply, val_main_v69_apply]
  have e1 : ∀ k, lidx_main_v68 (ix2 b (0 : Fin 1)) k = ix2 b k := fun k => by idx2
  have e2 : ∀ k, ridx_main_v68 (ix2 b (0 : Fin 1)) k = ix2 k (0 : Fin 1) := fun k => by idx2
  have e3 : idx_main_v69 (idx_main_v70 (ix2 b (0 : Fin 1))) = ix1 (0 : Fin 1) := by idx1
  have e4 : idx_main_v72 (ix2 b (0 : Fin 1)) = ix0 := by idx0
  simp only [e1, e2, e3, e4]
  rfl

theorem hidden_read (b : Fin 4096) (j : Fin 256) :
    val_main_v91 (F := Ideal) x0 x6 x7 (ix2 b j) = hidden (mat x0) (mat x6) (vec x7) b j := by
  rw [val_main_v91_apply, val_main_v90_apply, val_main_v87_apply, val_main_v89_apply, val_main_v88_apply,
    val_main_call0_v0_apply, val_main_call0_cst_apply]
  have e1 : ∀ k, lidx_main_v87 (ix2 b j) k = ix2 b k := fun k => by idx2
  have e2 : ∀ k, ridx_main_v87 (ix2 b j) k = ix2 k j := fun k => by idx2
  have e3 : idx_main_v88 (idx_main_v89 (ix2 b j)) = ix1 j := by idx1
  simp only [e1, e2, e3]
  rfl

theorem conf_read (b : Fin 4096) (u : Fin 1) :
    val_main_v101 (F := Ideal) x0 x6 x7 x8 x9 (ix2 b u)
      = confRef (mat x0) (mat x6) (vec x7) (col x8) (one1 x9) b := by
  obtain rfl : u = 0 := Subsingleton.elim _ _
  rw [val_main_v101_apply, val_main_v100_apply, val_main_cst_19_apply, val_main_v99_apply, val_main_v98_apply,
    val_main_cst_18_apply, val_main_v97_apply, val_main_v96_apply, val_main_v95_apply, val_main_v92_apply,
    val_main_v94_apply, val_main_v93_apply]
  have e1 : ∀ k, lidx_main_v92 (ix2 b (0 : Fin 1)) k = ix2 b k := fun k => by idx2
  have e2 : ∀ k, ridx_main_v92 (ix2 b (0 : Fin 1)) k = ix2 k (0 : Fin 1) := fun k => by idx2
  have e3 : idx_main_v93 (idx_main_v94 (ix2 b (0 : Fin 1))) = ix1 (0 : Fin 1) := by idx1
  simp only [e1, e2, e3, hidden_read]
  rfl

/-- The reference's result at `(b, c)` is the layer's entry in the reference's arrangement. -/
theorem out_read (b : Fin 4096) (c : Fin 1024) :
    val_main_v103 (F := Ideal) x0 x1 x2 x3 x4 x5 x6 x7 x8 x9 x10 x11 x12 x13 (ix2 b c)
      = outRef (mat x0) (mat x1) (vec x2) (col x3) (one1 x4) (one0 x5) (mat x6) (vec x7) (col x8) (one1 x9)
          (mat x10) (mat x11) (mat x12) (mat x13) b c := by
  rw [val_main_v103_apply, val_main_v86_apply, val_main_v81_apply, val_main_v85_apply, val_main_v80_apply,
    val_main_v84_apply, val_main_v83_apply, val_main_v82_apply, val_main_cst_17_apply, val_main_v102_apply]
  have e1 : idx_main_v80 (ix2 b c) = ix2 b (0 : Fin 1) := by idx2
  have e2 : idx_main_v84 (ix2 b c) = ix2 b (0 : Fin 1) := by idx2
  have e3 : idx_main_v102 (ix2 b c) = ix2 b (0 : Fin 1) := by idx2
  rw [e1, e2, e3, gate_read, conf_read, tierFast_read, tierDeep_read]
  rfl

/-- The reference's result array is the output array in the reference's arrangement. -/
theorem result_eq :
    val_main_v103 (F := Ideal) x0 x1 x2 x3 x4 x5 x6 x7 x8 x9 x10 x11 x12 x13
      = outArrayRef x0 x1 x2 x3 x4 x5 x6 x7 x8 x9 x10 x11 x12 x13 := by
  funext i
  rw [eq_ix2 i]
  exact out_read x0 x1 x2 x3 x4 x5 x6 x7 x8 x9 x10 x11 x12 x13 (i 0) (i 1)

end Cert.RefRead

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.KerOps.lean ====
/-
  The kernel's vector operations read at coordinates, at the extended reals, at the shapes of this kernel.

  Three matrix products into a zero accumulator: rows times a weight matrix (the contracted coordinate runs along the
  left operand's row and down the right operand's column), rows times the rows of a second matrix (both operands are
  contracted along their rows: the product with a transpose), and rows times the narrower weight matrix of the
  confidence network. Each entry is the plain sum over the contracted coordinate.
-/
import proofs.«112486_g69088843923761_cont_9to1_m_285_2_alg».proof.Proof.Gen.KernelIdeal
import proofs.«112486_g69088843923761_cont_9to1_m_285_2_alg».proof.Proof.LibColumnLayout
import proofs.«112486_g69088843923761_cont_9to1_m_285_2_alg».proof.Proof.LibLastAxisFolds
import Idealize.ShloMosaic.PureOps.Ideal.Laws
import Idealize.ShloMosaic.Lib.ValueIdx
import Idealize.ShloMosaic.Lib.ValueLayout
import Idealize.ShloMosaic.Lib.Pipeline.Value

noncomputable section

namespace Cert.KerOps

open Cert.KernelIdeal Idealize.ShloMosaic Idealize.ShloMosaic.ValueIdx

variable {φ₁ φ₂ : FTy}

theorem mm_weight_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_weight_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_weight_rc (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_weight_rn (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows times a weight matrix: entry `(p, c)` is the sum over `k` of `l (p, k) * r (k, c)`. -/
theorem mm_weight (l : FVec Ideal S512x1024 φ₁) (r : FVec Ideal S1024x1024 φ₂) (p : Fin 512) (c : Fin 1024) :
    matmul dot_S512x1024_S1024x1024_S512x1024_1_0_0_1_n_n none l r (constant S512x1024 .f32 0x00000000#32) (ix2 p c)
      = ∑ k : Fin 1024, l (ix2 p k) * r (ix2 k c) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p c) ((ValueIdx.contrEquiv1 dot_S512x1024_S1024x1024_S512x1024_1_0_0_1_n_n 1024 rfl rfl).symm k) = ix2 p k := funext fun a => Fin.ext (by
    match a with
    | ⟨0, _⟩ => exact mm_weight_l0 _ _
    | ⟨1, _⟩ => exact (mm_weight_l1 _ _).trans hk)
  have er : dot_S512x1024_S1024x1024_S512x1024_1_0_0_1_n_n.rhsIdx (ix2 p c) ((ValueIdx.contrEquiv1 dot_S512x1024_S1024x1024_S512x1024_1_0_0_1_n_n 1024 rfl rfl).symm k) = ix2 k c := funext fun a => Fin.ext (by
    match a with
    | ⟨0, _⟩ => exact (mm_weight_rc _ _).trans hk
    | ⟨1, _⟩ => exact mm_weight_rn _ _)
  rw [el, er]

theorem mm_rows_l0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm_rows_l1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm_rows_rc (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q
theorem mm_rows_rn (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- Rows times the rows of a second matrix: entry `(p, c)` is the sum over `k` of `l (p, k) * r (c, k)`. -/
theorem mm_rows (l : FVec Ideal S512x1024 φ₁) (r : FVec Ideal S1024x1024 φ₂) (p : Fin 512) (c : Fin 1024) :
    matmul dot_S512x1024_S1024x1024_S512x1024_1_1_0_0_n_n none l r (constant S512x1024 .f32 0x00000000#32) (ix2 p c)
      = ∑ k : Fin 1024, l (ix2 p k) * r (ix2 c k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p c) ((ValueIdx.contrEquiv1 dot_S512x1024_S1024x1024_S512x1024_1_1_0_0_n_n 1024 rfl rfl).symm k) = ix2 p k := funext fun a => Fin.ext (by
    match a with
    | ⟨0, _⟩ => exact mm_rows_l0 _ _
    | ⟨1, _⟩ => exact (mm_rows_l1 _ _).trans hk)
  have er : dot_S512x1024_S1024x1024_S512x1024_1_1_0_0_n_n.rhsIdx (ix2 p c) ((ValueIdx.contrEquiv1 dot_S512x1024_S1024x1024_S512x1024_1_1_0_0_n_n 1024 rfl rfl).symm k) = ix2 c k := funext fun a => Fin.ext (by
    match a with
    | ⟨1, _⟩ => exact (mm_rows_rc _ _).trans hk
    | ⟨0, _⟩ => exact mm_rows_rn _ _)
  rw [el, er]

theorem mm_hidden_l0 (i : S512x256.Idx) (q : dot_S512x1024_S1024x256_S512x256_1_0_0_1_n_n.contr.Idx) : (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem mm_hidden_l1 (i : S512x256.Idx) (q : dot_S512x1024_S1024x256_S512x256_1_0_0_1_n_n.contr.Idx) : (dot_S512x1024_S1024x256_S512x256_1_0_0_1_n_n.lhsIdx i q 1).val = (q ⟨0, by decide⟩).val :=
  dot_S512x1024_S1024x256_S512x256_1_0_0_1_n_n.lhsIdx_val_of_single rfl i q
theorem mm_hidden_rc (i : S512x256.Idx) (q : dot_S512x1024_S1024x256_S512x256_1_0_0_1_n_n.contr.Idx) : (dot_S512x1024_S1024x256_S512x256_1_0_0_1_n_n.rhsIdx i q 0).val = (q ⟨0, by decide⟩).val :=
  dot_S512x1024_S1024x256_S512x256_1_0_0_1_n_n.rhsIdx_val_of_single rfl i q
theorem mm_hidden_rn (i : S512x256.Idx) (q : dot_S512x1024_S1024x256_S512x256_1_0_0_1_n_n.contr.Idx) : (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Rows times the confidence network's first weight matrix: entry `(p, j)` is the sum over `k` of `l (p, k) * r (k, j)`. -/
theorem mm_hidden (l : FVec Ideal S512x1024 φ₁) (r : FVec Ideal S1024x256 φ₂) (p : Fin 512) (c : Fin 256) :
    matmul dot_S512x1024_S1024x256_S512x256_1_0_0_1_n_n none l r (constant S512x256 .f32 0x00000000#32) (ix2 p c)
      = ∑ k : Fin 1024, l (ix2 p k) * r (ix2 k c) := by
  simp only [matmul]
  rw [Ideal.matmul_constant_zero_apply, ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 p c) ((ValueIdx.contrEquiv1 dot_S512x1024_S1024x256_S512x256_1_0_0_1_n_n 1024 rfl rfl).symm k) = ix2 p k := funext fun a => Fin.ext (by
    match a with
    | ⟨0, _⟩ => exact mm_hidden_l0 _ _
    | ⟨1, _⟩ => exact (mm_hidden_l1 _ _).trans hk)
  have er : dot_S512x1024_S1024x256_S512x256_1_0_0_1_n_n.rhsIdx (ix2 p c) ((ValueIdx.contrEquiv1 dot_S512x1024_S1024x256_S512x256_1_0_0_1_n_n 1024 rfl rfl).symm k) = ix2 k c := funext fun a => Fin.ext (by
    match a with
    | ⟨0, _⟩ => exact (mm_hidden_rc _ _).trans hk
    | ⟨1, _⟩ => exact mm_hidden_rn _ _)
  rw [el, er]

end Cert.KerOps

end
-- ==== Proof.KerArrays.lean ====
/-
  What the kernel's windows hold at a grid point, read off the program's arguments.

  Before the region the program converts the input, the three weight matrices and the four memory arrays to the
  narrower float format (no change of value on the extended reals), lays the bias and weight vectors out as single
  rows, and adds the gate's bias to the mixing logit. The region has eight points; point `t` stages rows
  `512 t … 512 t + 511` of the input and of the output and the whole of every other array. So at a point the input
  block's row `r` is input row `512 t + r`, every other block is its array, a bias row read at `(0, d)` is the vector
  at `d`, a weight column laid out as a row read at `(0, d)` is the column at `(d, 0)`, and the one-entry blocks hold
  the gate's bias plus the mixing logit, and the confidence's last bias.
-/
import proofs.«112486_g69088843923761_cont_9to1_m_285_2_alg».proof.Proof.Gen.KernelIdeal.Value
import proofs.«112486_g69088843923761_cont_9to1_m_285_2_alg».proof.Proof.KerOps
import Idealize.ShloMosaic.Lib.StableHlo.Run
import Idealize.ShloMosaic.Lib.ValueIdx
import Idealize.ShloMosaic.Lib.ValueLayout

noncomputable section

namespace Cert.KerArrays

open Cert.KernelIdeal Cert.KernelIdeal.Gen Idealize.ShloMosaic Idealize.ShloMosaic.TcCoe Idealize.SL.Sem
open Idealize.ShloMosaic.ValueIdx Cert.KerOps Cert.Lib.LastAxisFolds

variable (m : (ℓ : Loc nD τ sig) → Buf (Elt Ideal) ℓ) (c : Dev nD)

/-! ## The arguments as launched -/

abbrev A0 : S4096x1024.Idx → EReal := fun i => m ((c : Thread nD τ).loc main_arg0) i
abbrev A1 : S1024x1024.Idx → EReal := fun i => m ((c : Thread nD τ).loc main_arg1) i
abbrev A2 : S1024.Idx → EReal := fun i => m ((c : Thread nD τ).loc main_arg2) i
abbrev A3 : S1024x1.Idx → EReal := fun i => m ((c : Thread nD τ).loc main_arg3) i
abbrev A4 : S1.Idx → EReal := fun i => m ((c : Thread nD τ).loc main_arg4) i
abbrev A5 : S_.Idx → EReal := fun i => m ((c : Thread nD τ).loc main_arg5) i
abbrev A6 : S1024x256.Idx → EReal := fun i => m ((c : Thread nD τ).loc main_arg6) i
abbrev A7 : S256.Idx → EReal := fun i => m ((c : Thread nD τ).loc main_arg7) i
abbrev A8 : S256x1.Idx → EReal := fun i => m ((c : Thread nD τ).loc main_arg8) i
abbrev A9 : S1.Idx → EReal := fun i => m ((c : Thread nD τ).loc main_arg9) i
abbrev A10 : S1024x1024.Idx → EReal := fun i => m ((c : Thread nD τ).loc main_arg10) i
abbrev A11 : S1024x1024.Idx → EReal := fun i => m ((c : Thread nD τ).loc main_arg11) i
abbrev A12 : S1024x1024.Idx → EReal := fun i => m ((c : Thread nD τ).loc main_arg12) i
abbrev A13 : S1024x1024.Idx → EReal := fun i => m ((c : Thread nD τ).loc main_arg13) i

/-! ## The index maps, decided over the eight points -/

/-- The input and the output move together down the rows, one block of 512 rows per point, eight blocks in all. -/
theorem idx_rows : ∀ t : Fin cfg0.N,
    win0_0.index t (0 : Fin 2) = win0_13.index t (0 : Fin 2) ∧ win0_0.index t (1 : Fin 2) = 0
    ∧ win0_13.index t (1 : Fin 2) = 0 ∧ win0_13.index t (0 : Fin 2) ≤ 7 :=
  (by decide +kernel : ∀ t : Fin grid0.N, _)

/-- Every other window stays on its one block. -/
theorem idx_zero : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Every block of rows is some point's. -/
theorem idx_onto : ∀ q : Fin 8, ∃ t : Fin cfg0.N, win0_13.index t = ![q.val, 0] :=
  (by decide +kernel : ∀ q : Fin 8, ∃ t : Fin grid0.N, win0_13.index t = ![q.val, 0])

/-! ## The blocks -/

theorem V_v0 : (V m c main_v0 : S4096x1024.Idx → EReal) = A0 m c := by
  dsimp only [Gen.V, Gen.hostOps0]; after_results; rfl

/-- Window 0's block at point `t`: row `r` of the block is row `512 · (block index) + r` of the input. -/
theorem blk0 (t : Fin cfg0.N) (r : Fin 512) (k : Fin 1024) (R : Fin 4096)
    (hR : R.val = win0_13.index t (0 : Fin 2) * 512 + r.val) : iblk m c 0 t (ix2 r k) = A0 m c (ix2 R k) := by
  obtain ⟨e0, e1, -⟩ := idx_rows t
  show V m c main_v0 (((cfg0.win 0).blk t).view.emb (ix2 r k)) = _
  rw [V_v0]
  refine congrArg (A0 m c) ?_
  funext a; apply Fin.ext
  match a with
  | ⟨0, _⟩ => show win0_0.index t (0 : Fin 2) * 512 + 1 * r.val = R.val; omega
  | ⟨1, _⟩ => show win0_0.index t (1 : Fin 2) * 1024 + 1 * k.val = k.val; omega

theorem V_v1 : (V m c main_v1 : S1024x1024.Idx → EReal) = A1 m c := by
  dsimp only [Gen.V, Gen.hostOps0]; after_results; rfl

/-- Window 1 stages its whole array at every point. -/
theorem blk1 (t : Fin cfg0.N) (i : S1024x1024.Idx) : iblk m c 1 t i = A1 m c i := by
  obtain ⟨e0, e1⟩ := (idx_zero t).1
  show V m c main_v1 (((cfg0.win 1).blk t).view.emb i) = _
  rw [V_v1]
  refine congrArg (A1 m c) ?_
  funext a; apply Fin.ext
  match a with
  | ⟨0, _⟩ => show win0_1.index t (0 : Fin 2) * 1024 + 1 * (i 0).val = (i 0).val; omega
  | ⟨1, _⟩ => show win0_1.index t (1 : Fin 2) * 1024 + 1 * (i 1).val = (i 1).val; omega

theorem V_v7 : (V m c main_v7 : S1x1024.Idx → EReal) = shapeCast S1x1024 (A2 m c) shapeCasts_S1024_S1x1024 := by
  dsimp only [Gen.V, Gen.hostOps0]; after_results; rfl

/-- The query bias as one row, read at `(0, d)`, is the bias at `d`. -/
theorem blk2 (t : Fin cfg0.N) (u : Fin 1) (d : Fin 1024) : iblk m c 2 t (ix2 u d) = A2 m c (ix1 d) := by
  obtain ⟨e0, e1⟩ := (idx_zero t).2.1
  show V m c main_v7 (((cfg0.win 2).blk t).view.emb (ix2 u d)) = _
  rw [V_v7]
  have hi : ((cfg0.win 2).blk t).view.emb (ix2 u d) = ix2 u d := by
    funext a; apply Fin.ext
    match a with
    | ⟨0, _⟩ => show win0_2.index t (0 : Fin 2) * 1 + 1 * u.val = u.val; omega
    | ⟨1, _⟩ => show win0_2.index t (1 : Fin 2) * 1024 + 1 * d.val = d.val; omega
  rw [hi]
  exact shapeCast_a_1a_apply _ _ u d

theorem V_v8 : (V m c main_v8 : S1x1024.Idx → EReal) = shapeCast S1x1024 (A3 m c) shapeCasts_S1024x1_S1x1024 := by
  dsimp only [Gen.V, Gen.hostOps0]; after_results; rfl

/-- The gate's weight column as one row, read at `(0, d)`, is the column at `(d, 0)`. -/
theorem blk3 (t : Fin cfg0.N) (u : Fin 1) (d : Fin 1024) : iblk m c 3 t (ix2 u d) = A3 m c (ix2 d (0 : Fin 1)) := by
  obtain ⟨e0, e1⟩ := (idx_zero t).2.2.1
  show V m c main_v8 (((cfg0.win 3).blk t).view.emb (ix2 u d)) = _
  rw [V_v8]
  have hi : ((cfg0.win 3).blk t).view.emb (ix2 u d) = ix2 u d := by
    funext a; apply Fin.ext
    match a with
    | ⟨0, _⟩ => show win0_3.index t (0 : Fin 2) * 1 + 1 * u.val = u.val; omega
    | ⟨1, _⟩ => show win0_3.index t (1 : Fin 2) * 1024 + 1 * d.val = d.val; omega
  rw [hi]
  exact shapeCast_a1_1a_apply _ _ u d

theorem V_v11 : (V m c main_v11 : S1x1.Idx → EReal)
    = shapeCast S1x1 (addf (F := Ideal) (φ := .f32) (A4 m c) (broadcastInDim S1 ![] bcast_S_S1 (A5 m c))) shapeCasts_S1_S1x1 := by
  dsimp only [Gen.V, Gen.hostOps0]; after_results; rfl

/-- The one-entry block of the gate: the gate's bias plus the mixing logit. -/
theorem blk4 (t : Fin cfg0.N) (u v : Fin 1) :
    iblk m c 4 t (ix2 u v) = A4 m c (ix1 (0 : Fin 1)) + A5 m c ix0 := by
  obtain ⟨e0, e1⟩ := (idx_zero t).2.2.2.1
  show V m c main_v11 (((cfg0.win 4).blk t).view.emb (ix2 u v)) = _
  rw [V_v11]
  have hi : ((cfg0.win 4).blk t).view.emb (ix2 u v) = ix2 u v := by
    funext a; apply Fin.ext
    match a with
    | ⟨0, _⟩ => show win0_4.index t (0 : Fin 2) * 1 + 1 * u.val = u.val; omega
    | ⟨1, _⟩ => show win0_4.index t (1 : Fin 2) * 1 + 1 * v.val = v.val; omega
  obtain rfl : v = 0 := Subsingleton.elim _ _
  rw [hi, shapeCast_a_1a_apply, addf_apply]
  refine congrArg (A4 m c (ix1 (0 : Fin 1)) + ·) ?_
  exact broadcastInDim_apply _ bcast_S_S1 (A5 m c) (ix1 (0 : Fin 1)) ix0 (fun a => a.elim0)

theorem V_v2 : (V m c main_v2 : S1024x256.Idx → EReal) = A6 m c := by
  dsimp only [Gen.V, Gen.hostOps0]; after_results; rfl

/-- Window 5 stages its whole array at every point. -/
theorem blk5 (t : Fin cfg0.N) (i : S1024x256.Idx) : iblk m c 5 t i = A6 m c i := by
  obtain ⟨e0, e1⟩ := (idx_zero t).2.2.2.2.1
  show V m c main_v2 (((cfg0.win 5).blk t).view.emb i) = _
  rw [V_v2]
  refine congrArg (A6 m c) ?_
  funext a; apply Fin.ext
  match a with
  | ⟨0, _⟩ => show win0_5.index t (0 : Fin 2) * 1024 + 1 * (i 0).val = (i 0).val; omega
  | ⟨1, _⟩ => show win0_5.index t (1 : Fin 2) * 256 + 1 * (i 1).val = (i 1).val; omega

theorem V_v12 : (V m c main_v12 : S1x256.Idx → EReal) = shapeCast S1x256 (A7 m c) shapeCasts_S256_S1x256 := by
  dsimp only [Gen.V, Gen.hostOps0]; after_results; rfl

/-- The hidden bias as one row, read at `(0, j)`, is the bias at `j`. -/
theorem blk6 (t : Fin cfg0.N) (u : Fin 1) (d : Fin 256) : iblk m c 6 t (ix2 u d) = A7 m c (ix1 d) := by
  obtain ⟨e0, e1⟩ := (idx_zero t).2.2.2.2.2.1
  show V m c main_v12 (((cfg0.win 6).blk t).view.emb (ix2 u d)) = _
  rw [V_v12]
  have hi : ((cfg0.win 6).blk t).view.emb (ix2 u d) = ix2 u d := by
    funext a; apply Fin.ext
    match a with
    | ⟨0, _⟩ => show win0_6.index t (0 : Fin 2) * 1 + 1 * u.val = u.val; omega
    | ⟨1, _⟩ => show win0_6.index t (1 : Fin 2) * 256 + 1 * d.val = d.val; omega
  rw [hi]
  exact shapeCast_a_1a_apply _ _ u d

theorem V_v13 : (V m c main_v13 : S1x256.Idx → EReal) = shapeCast S1x256 (A8 m c) shapeCasts_S256x1_S1x256 := by
  dsimp only [Gen.V, Gen.hostOps0]; after_results; rfl

/-- The confidence's weight column as one row, read at `(0, j)`, is the column at `(j, 0)`. -/
theorem blk7 (t : Fin cfg0.N) (u : Fin 1) (d : Fin 256) : iblk m c 7 t (ix2 u d) = A8 m c (ix2 d (0 : Fin 1)) := by
  obtain ⟨e0, e1⟩ := (idx_zero t).2.2.2.2.2.2.1
  show V m c main_v13 (((cfg0.win 7).blk t).view.emb (ix2 u d)) = _
  rw [V_v13]
  have hi : ((cfg0.win 7).blk t).view.emb (ix2 u d) = ix2 u d := by
    funext a; apply Fin.ext
    match a with
    | ⟨0, _⟩ => show win0_7.index t (0 : Fin 2) * 1 + 1 * u.val = u.val; omega
    | ⟨1, _⟩ => show win0_7.index t (1 : Fin 2) * 256 + 1 * d.val = d.val; omega
  rw [hi]
  exact shapeCast_a1_1a_apply _ _ u d

theorem V_v14 : (V m c main_v14 : S1x1.Idx → EReal) = shapeCast S1x1 (A9 m c) shapeCasts_S1_S1x1 := by
  dsimp only [Gen.V, Gen.hostOps0]; after_results; rfl

/-- The one-entry block of the confidence's last bias. -/
theorem blk8 (t : Fin cfg0.N) (u v : Fin 1) : iblk m c 8 t (ix2 u v) = A9 m c (ix1 (0 : Fin 1)) := by
  obtain ⟨e0, e1⟩ := (idx_zero t).2.2.2.2.2.2.2.1
  show V m c main_v14 (((cfg0.win 8).blk t).view.emb (ix2 u v)) = _
  rw [V_v14]
  have hi : ((cfg0.win 8).blk t).view.emb (ix2 u v) = ix2 u v := by
    funext a; apply Fin.ext
    match a with
    | ⟨0, _⟩ => show win0_8.index t (0 : Fin 2) * 1 + 1 * u.val = u.val; omega
    | ⟨1, _⟩ => show win0_8.index t (1 : Fin 2) * 1 + 1 * v.val = v.val; omega
  obtain rfl : v = 0 := Subsingleton.elim _ _
  rw [hi]
  exact shapeCast_a_1a_apply _ _ u (0 : Fin 1)

theorem V_v3 : (V m c main_v3 : S1024x1024.Idx → EReal) = A10 m c := by
  dsimp only [Gen.V, Gen.hostOps0]; after_results; rfl

/-- Window 9 stages its whole array at every point. -/
theorem blk9 (t : Fin cfg0.N) (i : S1024x1024.Idx) : iblk m c 9 t i = A10 m c i := by
  obtain ⟨e0, e1⟩ := (idx_zero t).2.2.2.2.2.2.2.2.1
  show V m c main_v3 (((cfg0.win 9).blk t).view.emb i) = _
  rw [V_v3]
  refine congrArg (A10 m c) ?_
  funext a; apply Fin.ext
  match a with
  | ⟨0, _⟩ => show win0_9.index t (0 : Fin 2) * 1024 + 1 * (i 0).val = (i 0).val; omega
  | ⟨1, _⟩ => show win0_9.index t (1 : Fin 2) * 1024 + 1 * (i 1).val = (i 1).val; omega

theorem V_v4 : (V m c main_v4 : S1024x1024.Idx → EReal) = A11 m c := by
  dsimp only [Gen.V, Gen.hostOps0]; after_results; rfl

/-- Window 10 stages its whole array at every point. -/
theorem blk10 (t : Fin cfg0.N) (i : S1024x1024.Idx) : iblk m c 10 t i = A11 m c i := by
  obtain ⟨e0, e1⟩ := (idx_zero t).2.2.2.2.2.2.2.2.2.1
  show V m c main_v4 (((cfg0.win 10).blk t).view.emb i) = _
  rw [V_v4]
  refine congrArg (A11 m c) ?_
  funext a; apply Fin.ext
  match a with
  | ⟨0, _⟩ => show win0_10.index t (0 : Fin 2) * 1024 + 1 * (i 0).val = (i 0).val; omega
  | ⟨1, _⟩ => show win0_10.index t (1 : Fin 2) * 1024 + 1 * (i 1).val = (i 1).val; omega

theorem V_v5 : (V m c main_v5 : S1024x1024.Idx → EReal) = A12 m c := by
  dsimp only [Gen.V, Gen.hostOps0]; after_results; rfl

/-- Window 11 stages its whole array at every point. -/
theorem blk11 (t : Fin cfg0.N) (i : S1024x1024.Idx) : iblk m c 11 t i = A12 m c i := by
  obtain ⟨e0, e1⟩ := (idx_zero t).2.2.2.2.2.2.2.2.2.2.1
  show V m c main_v5 (((cfg0.win 11).blk t).view.emb i) = _
  rw [V_v5]
  refine congrArg (A12 m c) ?_
  funext a; apply Fin.ext
  match a with
  | ⟨0, _⟩ => show win0_11.index t (0 : Fin 2) * 1024 + 1 * (i 0).val = (i 0).val; omega
  | ⟨1, _⟩ => show win0_11.index t (1 : Fin 2) * 1024 + 1 * (i 1).val = (i 1).val; omega

theorem V_v6 : (V m c main_v6 : S1024x1024.Idx → EReal) = A13 m c := by
  dsimp only [Gen.V, Gen.hostOps0]; after_results; rfl

/-- Window 12 stages its whole array at every point. -/
theorem blk12 (t : Fin cfg0.N) (i : S1024x1024.Idx) : iblk m c 12 t i = A13 m c i := by
  obtain ⟨e0, e1⟩ := (idx_zero t).2.2.2.2.2.2.2.2.2.2.2
  show V m c main_v6 (((cfg0.win 12).blk t).view.emb i) = _
  rw [V_v6]
  refine congrArg (A13 m c) ?_
  funext a; apply Fin.ext
  match a with
  | ⟨0, _⟩ => show win0_12.index t (0 : Fin 2) * 1024 + 1 * (i 0).val = (i 0).val; omega
  | ⟨1, _⟩ => show win0_12.index t (1 : Fin 2) * 1024 + 1 * (i 1).val = (i 1).val; omega

end Cert.KerArrays

end
-- ==== Proof.SpecBlock.lean ====
/-
  The kernel's output entry as a function of ONE input row.

  In the kernel's arrangement the entry `(b, c)` of the layer depends on the input only through its row `b`, and on
  the gate's bias and the mixing logit only through their sum. Written over a row `x` and that sum it is the same
  expression, so the layer's entry is this one at row `X b` and `gb + mix`, by definition.
-/
import proofs.«112486_g69088843923761_cont_9to1_m_285_2_alg».proof.Proof.Spec

noncomputable section

namespace Cert.Spec

open Idealize.ShloMosaic Cert.Literals Cert.Tier

/-- The kernel's output entry at column `c` for the input row `x`, with the gate's two constant terms already added. -/
def outBlk (x : Fin 1024 → EReal) (Wq : Fin 1024 → Fin 1024 → EReal) (bq : Fin 1024 → EReal) (gw : Fin 1024 → EReal)
    (gbm : EReal) (W1 : Fin 1024 → Fin 256 → EReal) (b1 : Fin 256 → EReal) (w2 : Fin 256 → EReal) (b2 : EReal)
    (FK FV DK DV : Fin 1024 → Fin 1024 → EReal) (c : Fin 1024) : EReal :=
  (Ideal.logistic ((∑ d, x d * gw d) + gbm) * tierKer (fun d => (∑ k, x k * Wq k d) + bq d) FK FV c
    + (one32 - Ideal.logistic ((∑ d, x d * gw d) + gbm)) * tierKer (fun d => (∑ k, x k * Wq k d) + bq d) DK DV c)
    * Ideal.logistic ((∑ j, max ((∑ k, x k * W1 k j) + b1 j) zero32 * w2 j) + b2)

/-- The layer's entry in the kernel's arrangement is the row form at row `b`. -/
theorem outKer_eq_outBlk (X : Fin 4096 → Fin 1024 → EReal) (Wq : Fin 1024 → Fin 1024 → EReal) (bq : Fin 1024 → EReal)
    (gw : Fin 1024 → EReal) (gb mix : EReal) (W1 : Fin 1024 → Fin 256 → EReal) (b1 : Fin 256 → EReal)
    (w2 : Fin 256 → EReal) (b2 : EReal) (FK FV DK DV : Fin 1024 → Fin 1024 → EReal) (b : Fin 4096) (c : Fin 1024) :
    outKer X Wq bq gw gb mix W1 b1 w2 b2 FK FV DK DV b c
      = outBlk (X b) Wq bq gw (gb + mix) W1 b1 w2 b2 FK FV DK DV c := rfl

end Cert.Spec

end
-- ==== Proof.KerPayload.lean ====
/-
  The kernel body's result block, entry by entry, as the row form of the layer's output.

  The body computes its one stored value from the blocks it loads. Read at entry `(r, c)` of the block:
  the normalised query row is `q d * (1 / |q|)` for the query row `q = x r · Wq + bq`; the fast tier's shifted
  exponentials, their row sum and the weighted sum of the fast values are a tier in the reciprocal form; the deep tier
  is the same with its own keys and values; the gate is the sigmoid of `x r · gw` plus the one-entry gate block and the
  confidence the sigmoid of the rectified hidden row against `w2` plus the last bias; the stored entry is their blend.
  Every step is the operation's reading at an index: an elementwise operation at the same index, a product as the
  sum over the contracted coordinate, a sum or maximum along a row at that row, a kept column or a spread row at its
  one coordinate. The changes of float format are the identity.
-/
import proofs.«112486_g69088843923761_cont_9to1_m_285_2_alg».proof.Proof.Gen.KernelIdeal.Frame
import proofs.«112486_g69088843923761_cont_9to1_m_285_2_alg».proof.Proof.KerOps
import proofs.«112486_g69088843923761_cont_9to1_m_285_2_alg».proof.Proof.Arrays
import proofs.«112486_g69088843923761_cont_9to1_m_285_2_alg».proof.Proof.SpecBlock

noncomputable section

namespace Cert.KerPayload

open Cert.KernelIdeal Cert.KernelIdeal.Gen Idealize.ShloMosaic Idealize.ShloMosaic.ValueIdx
open Cert.Literals Cert.Tier Cert.Spec Cert.Arrays Cert.KerOps Cert.Lib.LastAxisFolds

variable (xb : Vec Ideal S512x1024 .bf16) (wq : Vec Ideal S1024x1024 .bf16) (bq : Vec Ideal S1x1024 .f32)
  (gw : Vec Ideal S1x1024 .f32) (gbm : Vec Ideal S1x1 .f32) (w1 : Vec Ideal S1024x256 .bf16)
  (b1 : Vec Ideal S1x256 .f32) (w2 : Vec Ideal S1x256 .f32) (b2 : Vec Ideal S1x1 .f32)
  (fk fv dk dv : Vec Ideal S1024x1024 .bf16)

/-- A one-row block read along its row. -/
def row {n : ℕ} (x : (⟨2, ![1, n]⟩ : Shape).Idx → EReal) (d : Fin n) : EReal := x (ix2 (0 : Fin 1) d)

/-- The query row of block row `r`. -/
def qrow (r : Fin 512) (d : Fin 1024) : EReal := (∑ k : Fin 1024, xb (ix2 r k) * wq (ix2 k d)) + bq (ix2 (0 : Fin 1) d)

/-- The normalised query row: the query row times the reciprocal of its floored length. -/
theorem normq_apply (r : Fin 512) (d : Fin 1024) :
    k0_pay3 (F := Ideal) xb wq bq (ix2 r d)
      = qrow xb wq bq r d * Ideal.div one32 (flooredNorm (qrow xb wq bq r)) := by
  simp only [k0_pay3, k0_pay2]
  rw [rowsum_fn]
  simp only [truncf_apply, extf_apply, mulf_apply, addf_apply, subf_apply, divf_apply, maximumf_apply, broadcast_apply, sqrt_apply, exp_apply, logistic_apply, constant_apply, shapeCast_self, ColumnLayout.broadcastTo_a1_ab_apply, ColumnLayout.shapeCast_a_a1_apply, broadcastTo_1b_ab_apply, shapeCast_a_1a_apply, mm_weight, mm_rows, mm_hidden, Ideal.ofBits_def]
  rfl

/-- The fast tier's shifted exponentials. -/
theorem expfast_apply (r : Fin 512) (m : Fin 1024) :
    k0_pay4 (F := Ideal) xb wq bq fk (ix2 r m)
      = Ideal.exp (scoreKer (qrow xb wq bq r) (mat fk) m
          - (Finset.univ : Finset (Fin 1024)).fold max ninf32 (scoreKer (qrow xb wq bq r) (mat fk))) := by
  simp only [k0_pay4]
  rw [rowsum_fn, rowmax_fn]
  simp only [truncf_apply, extf_apply, mulf_apply, addf_apply, subf_apply, divf_apply, maximumf_apply, broadcast_apply, sqrt_apply, exp_apply, logistic_apply, constant_apply, shapeCast_self, ColumnLayout.broadcastTo_a1_ab_apply, ColumnLayout.shapeCast_a_a1_apply, broadcastTo_1b_ab_apply, shapeCast_a_1a_apply, mm_weight, mm_rows, mm_hidden, Ideal.ofBits_def, normq_apply]
  rfl

/-- The fast tier's row sum, kept as a column. -/
theorem sumfast_apply (r : Fin 512) (u : Fin 1) :
    k0_pay5 (F := Ideal) xb wq bq fk (ix2 r u)
      = ∑ j, Ideal.exp (scoreKer (qrow xb wq bq r) (mat fk) j
          - (Finset.univ : Finset (Fin 1024)).fold max ninf32 (scoreKer (qrow xb wq bq r) (mat fk))) := by
  simp only [k0_pay5]
  rw [rowsum_fn]
  simp only [truncf_apply, extf_apply, mulf_apply, addf_apply, subf_apply, divf_apply, maximumf_apply, broadcast_apply, sqrt_apply, exp_apply, logistic_apply, constant_apply, shapeCast_self, ColumnLayout.broadcastTo_a1_ab_apply, ColumnLayout.shapeCast_a_a1_apply, broadcastTo_1b_ab_apply, shapeCast_a_1a_apply, mm_weight, mm_rows, mm_hidden, Ideal.ofBits_def, expfast_apply]

/-- The weighted sum of values, for any exponentials and row sums. -/
theorem weighted_apply (e : FVec Ideal S512x1024 .f32) (l : FVec Ideal S512x1 .f32) (r : Fin 512) (c : Fin 1024) :
    k0_pay6 (F := Ideal) e l fv (ix2 r c)
      = ∑ m : Fin 1024, (e (ix2 r m) * Ideal.div one32 (l (ix2 r (0 : Fin 1)))) * fv (ix2 m c) := by
  simp only [k0_pay6]
  simp only [truncf_apply, extf_apply, mulf_apply, addf_apply, subf_apply, divf_apply, maximumf_apply, broadcast_apply, sqrt_apply, exp_apply, logistic_apply, constant_apply, shapeCast_self, ColumnLayout.broadcastTo_a1_ab_apply, ColumnLayout.shapeCast_a_a1_apply, broadcastTo_1b_ab_apply, shapeCast_a_1a_apply, mm_weight, mm_rows, mm_hidden, Ideal.ofBits_def]

/-- The fast tier's answer. -/
theorem fast_apply (r : Fin 512) (c : Fin 1024) :
    k0_pay6 (F := Ideal) (k0_pay4 xb wq bq fk) (k0_pay5 xb wq bq fk) fv (ix2 r c)
      = tierKer (qrow xb wq bq r) (mat fk) (mat fv) c := by
  rw [weighted_apply]
  simp only [expfast_apply, sumfast_apply]
  rfl

/-- The deep tier's answer, for any normalised query block. -/
theorem deepOf_apply (nq : FVec Ideal S512x1024 .bf16) (r : Fin 512) (c : Fin 1024) :
    k0_pay7 (F := Ideal) nq dk dv (ix2 r c)
      = attendKer (fun m => (∑ d : Fin 1024, nq (ix2 r d) * dk (ix2 m d)) * Ideal.div one32 (flooredNorm (mat dk m)))
          (mat dv) c := by
  simp only [k0_pay7]
  rw [rowsum_fn, rowsum_fn, rowmax_fn]
  simp only [truncf_apply, extf_apply, mulf_apply, addf_apply, subf_apply, divf_apply, maximumf_apply, broadcast_apply, sqrt_apply, exp_apply, logistic_apply, constant_apply, shapeCast_self, ColumnLayout.broadcastTo_a1_ab_apply, ColumnLayout.shapeCast_a_a1_apply, broadcastTo_1b_ab_apply, shapeCast_a_1a_apply, mm_weight, mm_rows, mm_hidden, Ideal.ofBits_def]
  rfl

/-- The deep tier's answer. -/
theorem deep_apply (r : Fin 512) (c : Fin 1024) :
    k0_pay7 (F := Ideal) (k0_pay3 xb wq bq) dk dv (ix2 r c) = tierKer (qrow xb wq bq r) (mat dk) (mat dv) c := by
  rw [deepOf_apply]
  simp only [normq_apply]
  rfl

/-- The gate's products, before their row sum. -/
theorem gateprod_apply (x : FVec Ideal S512x1024 .bf16) (r : Fin 512) (d : Fin 1024) :
    k0_pay8 (F := Ideal) x gw (ix2 r d) = x (ix2 r d) * gw (ix2 (0 : Fin 1) d) := by
  simp only [k0_pay8]
  simp only [truncf_apply, extf_apply, mulf_apply, addf_apply, subf_apply, divf_apply, maximumf_apply, broadcast_apply, sqrt_apply, exp_apply, logistic_apply, constant_apply, shapeCast_self, ColumnLayout.broadcastTo_a1_ab_apply, ColumnLayout.shapeCast_a_a1_apply, broadcastTo_1b_ab_apply, shapeCast_a_1a_apply, mm_weight, mm_rows, mm_hidden, Ideal.ofBits_def]

/-- The stored entry, for any tier answers and gate products. -/
theorem blend_apply (x : FVec Ideal S512x1024 .bf16) (fast deep gp : FVec Ideal S512x1024 .f32) (r : Fin 512) (c : Fin 1024) :
    k0_pay1 (F := Ideal) x fast deep gp gbm w1 b1 w2 b2 (ix2 r c)
      = (Ideal.logistic ((∑ d : Fin 1024, gp (ix2 r d)) + gbm (ix2 (0 : Fin 1) (0 : Fin 1))) * fast (ix2 r c)
          + (one32 - Ideal.logistic ((∑ d : Fin 1024, gp (ix2 r d)) + gbm (ix2 (0 : Fin 1) (0 : Fin 1)))) * deep (ix2 r c))
        * Ideal.logistic ((∑ j : Fin 256, max ((∑ k : Fin 1024, x (ix2 r k) * w1 (ix2 k j)) + b1 (ix2 (0 : Fin 1) j)) zero32
            * w2 (ix2 (0 : Fin 1) j)) + b2 (ix2 (0 : Fin 1) (0 : Fin 1))) := by
  simp only [k0_pay1]
  rw [rowsum_fn, rowsum_fn]
  simp only [truncf_apply, extf_apply, mulf_apply, addf_apply, subf_apply, divf_apply, maximumf_apply, broadcast_apply, sqrt_apply, exp_apply, logistic_apply, constant_apply, shapeCast_self, ColumnLayout.broadcastTo_a1_ab_apply, ColumnLayout.shapeCast_a_a1_apply, broadcastTo_1b_ab_apply, shapeCast_a_1a_apply, mm_weight, mm_rows, mm_hidden, Ideal.ofBits_def]

theorem hz : (![0, 0] : Fin 2 → Nat) = fun _ => 0 := funext fun a => by fin_cases a <;> rfl

/-- The body's result block at `(r, c)` is the row form of the layer's output for block row `r`. -/
theorem out_apply (r : Fin 512) (c : Fin 1024) :
    out0_13 (F := Ideal) xb wq bq gw gbm w1 b1 w2 b2 fk fv dk dv (ix2 r c)
      = outBlk (fun k => xb (ix2 r k)) (mat wq) (row bq) (row gw) (gbm (ix2 (0 : Fin 1) (0 : Fin 1))) (mat w1) (row b1)
          (row w2) (b2 (ix2 (0 : Fin 1) (0 : Fin 1))) (mat fk) (mat fv) (mat dk) (mat dv) c := by
  unfold out0_13
  rw [View.canon_unit_zero hz]
  simp only [View.ld_unit_zero (S := S512x1024) hz, View.ld_unit_zero (S := S1024x1024) hz,
    View.ld_unit_zero (S := S1x1024) hz, View.ld_unit_zero (S := S1x1) hz, View.ld_unit_zero (S := S1024x256) hz,
    View.ld_unit_zero (S := S1x256) hz]
  rw [blend_apply]
  simp only [fast_apply, deep_apply, gateprod_apply, k0_pay2, shapeCast_self]
  rfl

end Cert.KerPayload

end
-- ==== Proof.KerFinal.lean ====
/-
  The kernel's output array after the run: the layer's output in the kernel's arrangement.

  Point `t` writes back its result block, whose entry `(r, c)` is the row form of the output for the block's row
  `r` of the input block and the other blocks whole. The input block's row `r` is input row `512 · (block index) + r`,
  which is also the row of the output array that entry `(r, c)` of the output block lands on; every other block is its
  array. So the block written back is the block of the output array at that point. The eight blocks of 512 rows fill
  the 4096 rows: row `ρ` lies in the block of index `ρ / 512`. Hence the array ends equal to the output array
  everywhere.
-/
import proofs.«112486_g69088843923761_cont_9to1_m_285_2_alg».proof.Proof.Gen.KernelIdeal.Value
import proofs.«112486_g69088843923761_cont_9to1_m_285_2_alg».proof.Proof.KerArrays
import proofs.«112486_g69088843923761_cont_9to1_m_285_2_alg».proof.Proof.KerPayload

noncomputable section

namespace Cert.KerFinal

open Cert.KernelIdeal Cert.KernelIdeal.Gen Idealize.ShloMosaic Idealize.ShloMosaic.TcCoe Idealize.SL.Sem
open Idealize.ShloMosaic.ValueIdx
open Idealize.ShloMosaic.Pipeline (Dat)
open Cert.Literals Cert.Tier Cert.Spec Cert.Arrays Cert.KerArrays Cert.KerPayload

variable (m : (ℓ : Loc nD τ sig) → Buf (Elt Ideal) ℓ) (ρ : Dev nD → PrngReg) (c : Dev nD)

/-- The layer's output array, in the kernel's arrangement, of the arguments as launched. -/
abbrev outArr : S4096x1024.Idx → EReal := outArrayKer (A0 m c) (A1 m c) (A2 m c) (A3 m c) (A4 m c) (A5 m c) (A6 m c) (A7 m c) (A8 m c) (A9 m c) (A10 m c) (A11 m c) (A12 m c) (A13 m c)

/-- What point `t` writes back is block `t` of the output array. -/
theorem flushed_eq (t : Fin cfg0.N) :
    (dats m 0 c).flushed 13 t = ((cfg0.win 13).blk t).view.read (Elt Ideal) (outArr m c) := by
  rw [Cert.KernelIdeal.Value.flushed13]
  funext y
  obtain ⟨r, cc, rfl⟩ : ∃ (r : Fin 512) (cc : Fin 1024), y = ix2 r cc := ⟨y 0, y 1, eq_ix2 y⟩
  obtain ⟨e0, e1, e2, e3⟩ := idx_rows t
  have hR : win0_13.index t (0 : Fin 2) * 512 + r.val < 4096 := by have := r.isLt; omega
  have hemb : ((cfg0.win 13).blk t).view.emb (ix2 r cc)
      = ix2 (⟨win0_13.index t (0 : Fin 2) * 512 + r.val, hR⟩ : Fin 4096) cc := by
    funext a; apply Fin.ext
    match a with
    | ⟨0, _⟩ => show win0_13.index t (0 : Fin 2) * 512 + 1 * r.val = win0_13.index t (0 : Fin 2) * 512 + r.val; omega
    | ⟨1, _⟩ => show win0_13.index t (1 : Fin 2) * 1024 + 1 * cc.val = cc.val; omega
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r cc) = outArr m c (((cfg0.win 13).blk t).view.emb (ix2 r cc))
  rw [hemb]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r cc).trans ?_
  show _ = outKer (mat (A0 m c)) (mat (A1 m c)) (vec (A2 m c)) (col (A3 m c)) (one1 (A4 m c)) (one0 (A5 m c)) (mat (A6 m c))
    (vec (A7 m c)) (col (A8 m c)) (one1 (A9 m c)) (mat (A10 m c)) (mat (A11 m c)) (mat (A12 m c)) (mat (A13 m c))
    (⟨win0_13.index t (0 : Fin 2) * 512 + r.val, hR⟩ : Fin 4096) cc
  rw [outKer_eq_outBlk]
  have h0 : (fun k => iblk m c 0 t (ix2 r k)) = mat (A0 m c) (⟨win0_13.index t (0 : Fin 2) * 512 + r.val, hR⟩ : Fin 4096) :=
    funext fun k => blk0 m c t r k _ rfl
  have h1 : mat (iblk m c 1 t) = mat (A1 m c) := funext fun i => funext fun j => blk1 m c t (ix2 i j)
  have h2 : row (iblk m c 2 t) = vec (A2 m c) := funext fun d => blk2 m c t 0 d
  have h3 : row (iblk m c 3 t) = col (A3 m c) := funext fun d => blk3 m c t 0 d
  have h4 : iblk m c 4 t (ix2 (0 : Fin 1) (0 : Fin 1)) = one1 (A4 m c) + one0 (A5 m c) := blk4 m c t 0 0
  have h5 : mat (iblk m c 5 t) = mat (A6 m c) := funext fun i => funext fun j => blk5 m c t (ix2 i j)
  have h6 : row (iblk m c 6 t) = vec (A7 m c) := funext fun d => blk6 m c t 0 d
  have h7 : row (iblk m c 7 t) = col (A8 m c) := funext fun d => blk7 m c t 0 d
  have h8 : iblk m c 8 t (ix2 (0 : Fin 1) (0 : Fin 1)) = one1 (A9 m c) := blk8 m c t 0 0
  have h9 : mat (iblk m c 9 t) = mat (A10 m c) := funext fun i => funext fun j => blk9 m c t (ix2 i j)
  have h10 : mat (iblk m c 10 t) = mat (A11 m c) := funext fun i => funext fun j => blk10 m c t (ix2 i j)
  have h11 : mat (iblk m c 11 t) = mat (A12 m c) := funext fun i => funext fun j => blk11 m c t (ix2 i j)
  have h12 : mat (iblk m c 12 t) = mat (A13 m c) := funext fun i => funext fun j => blk12 m c t (ix2 i j)
  rw [h0, h1, h2, h3, h4, h5, h6, h7, h8, h9, h10, h11, h12]

/-- An index of the output array is in point `t`'s block iff each coordinate is in the block's range on its axis. -/
theorem mem_blk (t : Fin cfg0.N) (i : S4096x1024.Idx) :
    i ∈ ((cfg0.win 13).blk t).view.set ↔ ∀ a : Fin 2, win0_13.index t a * S512x1024.size a ≤ (i a).val
      ∧ (i a).val < win0_13.index t a * S512x1024.size a + S512x1024.size a := by
  show i ∈ ((View.whole main_v15).slice (win0_13.rect t)).set ↔ _
  rw [View.set_slice_whole, Rect.mem_set_unit]
  exact Iff.rfl

/-- Every index of the output array lies in some point's block. -/
theorem cover (i : S4096x1024.Idx) :
    ∃ t : Fin cfg0.N, (cfg0.win 13).flush t = true ∧ i ∈ ((cfg0.win 13).blk t).view.set := by
  have hi0 : (i 0).val < 4096 := (i 0).isLt
  have hi1 : (i 1).val < 1024 := (i 1).isLt
  obtain ⟨t, ht⟩ := idx_onto ⟨(i 0).val / 512, by omega⟩
  have q0 : win0_13.index t (0 : Fin 2) = (i 0).val / 512 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 1024 ≤ (i 1).val ∧ (i 1).val < win0_13.index t (1 : Fin 2) * 1024 + 1024; omega

/-- The output array after the run. -/
theorem final : (dats m 0 c).arrAt 13 cfg0.N = outArr m c :=
  (dats m 0 c).arrAt_eq_of_cover 13 (outArr m c) (fun t _ => flushed_eq m c t) cover

/-- The kernel's run: it terminates with the output at the layer's output array in the kernel's arrangement, the
    arguments unchanged. -/
theorem run : θ_run defs (onTc (τ := τ) (main (F := Ideal))) ⟨m, fun _ => 0, ρ⟩ fun r => ∀ c : Dev nD,
      r.2.mem ((c : Thread nD τ).loc main_v15) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KerFinal

end
-- ==== Proof.Finite.lean ====
/-
  From the precondition to real entries.

  The precondition compares the magnitude of every entry of every input array with plus infinity, takes the
  conjunction over each array, and the conjunction of the fourteen results; it holds when the final bit is one. A
  conjunction that is one has both sides one, so each array's conjunction is one, so each of its comparisons is
  one. On the extended reals `max x (-x) < ⊤` fails exactly at the two infinities, so every entry is a real number.
  Only the five arrays that feed the tiers' queries and keys are needed: the input, the query weights and bias,
  and the fast and deep keys.
-/
import proofs.«112486_g69088843923761_cont_9to1_m_285_2_alg».proof.Proof.Gen.Pre_finite_inputs
import proofs.«112486_g69088843923761_cont_9to1_m_285_2_alg».proof.Proof.TierAlgebra
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Cert.Tier Cert.Pre_finite_inputs Cert.Pre_finite_inputs.Gen

instance : Subsingleton S_.Idx := ⟨fun _ _ => funext fun d => d.elim0⟩

/-- An extended real whose magnitude is below plus infinity is a real number. -/
theorem isR_of_abs_lt_inf (x : EReal)
    (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An array whose "every magnitude is below plus infinity" bit is one holds real numbers. -/
theorem all_real {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu ix0 = 1#1) (i : s.Idx) : IsR (x i) := by
  have hi := Host.reduce_andi_all _ _ h hu ix0 e i
  have hc : broadcastInDim s ![] hb (constant (F := Ideal) S_ .f32 0x7F800000#32) i = Ideal.ofBits .f32 0x7F800000#32 :=
    broadcastInDim_apply _ hb _ i ix0 (fun a => a.elim0)
  refine isR_of_abs_lt_inf (x i) ?_
  rw [← hc]
  exact hi

/-- Under the precondition the input, the query weights and bias, and both key arrays hold real numbers. -/
theorem reals_of_pre (a0 : FVec Ideal S4096x1024 .f32) (a1 : FVec Ideal S1024x1024 .f32) (a2 : FVec Ideal S1024 .f32) (a3 : FVec Ideal S1024x1 .f32) (a4 : FVec Ideal S1 .f32) (a5 : FVec Ideal S_ .f32) (a6 : FVec Ideal S1024x256 .f32) (a7 : FVec Ideal S256 .f32) (a8 : FVec Ideal S256x1 .f32) (a9 : FVec Ideal S1 .f32) (a10 : FVec Ideal S1024x1024 .f32) (a11 : FVec Ideal S1024x1024 .f32) (a12 : FVec Ideal S1024x1024 .f32) (a13 : FVec Ideal S1024x1024 .f32)
    (h : fn (F := Ideal) a0 a1 a2 a3 a4 a5 a6 a7 a8 a9 a10 a11 a12 a13 = fun _ => 1#1) :
    (∀ i, IsR (a0 i)) ∧ (∀ i, IsR (a1 i)) ∧ (∀ i, IsR (a2 i)) ∧ (∀ i, IsR (a10 i)) ∧ (∀ i, IsR (a12 i)) := by
  have h0 := congrFun h ix0
  dsimp only [fn, fn_part1, fn_part2, fn_part3] at h0
  obtain ⟨h0, -⟩ := IntOp.andi_eq_one.1 h0
  obtain ⟨h0, e12⟩ := IntOp.andi_eq_one.1 h0
  obtain ⟨h0, -⟩ := IntOp.andi_eq_one.1 h0
  obtain ⟨h0, e10⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a10 _ _ _ e10, all_real a12 _ _ _ e12⟩

end Cert.Finite

end
-- ==== Proof.lean ====
/-
  A fused dual-tier cosine-attention layer against its plain reference: both compute, for every row `b` of the input
  and column `c`,

      (g_b · fast_b,c + (1 - g_b) · deep_b,c) · conf_b

  where the query row is `q = x_b · Wq + bq`, each tier's answer is `∑_m softmax_m (cos (q, K_m)) · V_m,c` with the cosine
  taken after flooring both Euclidean lengths at a small positive constant, `g_b` is the sigmoid of
  `x_b · gw + gb + mix` and `conf_b` the sigmoid of `relu (x_b · W1 + b1) · w2 + b2`.

  The kernel works on blocks of 512 rows with every other array whole, multiplies by reciprocals where the reference
  divides (`q · (1/|q|)`, the raw dot product times `1/|K_m|`, `e · (1/∑e)`), and has the sigmoid as one operation. On the
  extended reals a change of float format is the identity, a matrix product into zero and a lane sum are the plain
  sums, a floored length is positive so its reciprocal is a finite nonnegative factor that comes out of a sum, and the
  sigmoid is by definition `1/(1 + exp(-t))`; the one place finiteness enters is the softmax denominator, which is
  nonzero because real scores have a largest one whose shifted exponential is one. The precondition makes the input,
  the query weights and bias and both key arrays real, hence every query row and every score.

  The modules: `Literals` (the four constants), `TierAlgebra` (one tier in both forms), `Spec`, `SpecBlock`, `Arrays`
  (the whole layer as a function of its arrays), `RefRead` (the reference's result is that function), `KerOps`,
  `KerPayload`, `KerArrays`, `KerFinal` (so is the kernel's output array), `Finite` (real entries from the
  precondition). The three frames are the generated ones; the idealization rewrote nothing.
-/
import proofs.«112486_g69088843923761_cont_9to1_m_285_2_alg».proof.Defs
import proofs.«112486_g69088843923761_cont_9to1_m_285_2_alg».proof.Proof.Gen.Kernel
import proofs.«112486_g69088843923761_cont_9to1_m_285_2_alg».proof.Proof.Gen.Kernel.Skeleton
import proofs.«112486_g69088843923761_cont_9to1_m_285_2_alg».proof.Proof.Gen.Kernel.Launch
import proofs.«112486_g69088843923761_cont_9to1_m_285_2_alg».proof.Proof.Gen.Kernel.Points
import proofs.«112486_g69088843923761_cont_9to1_m_285_2_alg».proof.Proof.Gen.Kernel.Frame
import proofs.«112486_g69088843923761_cont_9to1_m_285_2_alg».proof.Proof.Gen.KernelIdeal
import proofs.«112486_g69088843923761_cont_9to1_m_285_2_alg».proof.Proof.Gen.KernelIdeal.Skeleton
import proofs.«112486_g69088843923761_cont_9to1_m_285_2_alg».proof.Proof.Gen.KernelIdeal.Launch
import proofs.«112486_g69088843923761_cont_9to1_m_285_2_alg».proof.Proof.Gen.KernelIdeal.Points
import proofs.«112486_g69088843923761_cont_9to1_m_285_2_alg».proof.Proof.Gen.KernelIdeal.Frame
import proofs.«112486_g69088843923761_cont_9to1_m_285_2_alg».proof.Proof.Gen.ReferenceIdeal
import proofs.«112486_g69088843923761_cont_9to1_m_285_2_alg».proof.Proof.Gen.Pre_finite_inputs
import proofs.«112486_g69088843923761_cont_9to1_m_285_2_alg».proof.Proof.Gen.KernelIdeal.Value
import proofs.«112486_g69088843923761_cont_9to1_m_285_2_alg».proof.Proof.Gen.ReferenceIdeal.Run
import proofs.«112486_g69088843923761_cont_9to1_m_285_2_alg».proof.Proof.Gen.ReferenceIdeal.Read
import proofs.«112486_g69088843923761_cont_9to1_m_285_2_alg».proof.Proof.RefRead
import proofs.«112486_g69088843923761_cont_9to1_m_285_2_alg».proof.Proof.KerFinal
import proofs.«112486_g69088843923761_cont_9to1_m_285_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a sequence of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments the two programs end with one result array: the kernel's is the
    layer's output in the reciprocal arrangement, the reference's in the dividing arrangement, and under the
    precondition these are one array. -/
theorem algebraic : Cert.algebraic_KernelIdeal_ReferenceIdeal := by
  intro m ρ m' ρ' hpre hagree
  refine ⟨fun c => Cert.KerFinal.outArr m c, Cert.KerFinal.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13⟩ := hagree c
  obtain ⟨r0, r1, r2, r10, r12⟩ := Cert.Finite.reals_of_pre _ _ _ _ _ _ _ _ _ _ _ _ _ _ (hpre c)
  rw [Cert.ReferenceIdeal.Read.val_main_v103_eq, Cert.RefRead.result_eq, g0, g1, g2, g3, g4, g5, g6, g7, g8, g9, g10, g11, g12, g13]
  exact (Cert.Arrays.outArray_eq _ _ _ _ _ _ _ _ _ _ _ _ _ _ r0 r1 r2 r10 r12).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
